-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x512 : Shape := ⟨3, ![8192, 1, 512]⟩
abbrev S8192x1x1024 : Shape := ⟨3, ![8192, 1, 1024]⟩
abbrev S512x256 : Shape := ⟨2, ![512, 256]⟩
abbrev S768x1024 : Shape := ⟨2, ![768, 1024]⟩
abbrev S1024 : Shape := ⟨1, ![1024]⟩
abbrev S1024x1024 : Shape := ⟨2, ![1024, 1024]⟩
abbrev S1024x768 : Shape := ⟨2, ![1024, 768]⟩
abbrev S768 : Shape := ⟨1, ![768]⟩
abbrev S_ : Shape := ⟨0, ![]⟩

class Facts : Prop where
  bcast_S_S8192x1x512 : S_.BroadcastsInDim S8192x1x512 (![] : Fin 0 → Fin S8192x1x512.rank)
  reducesTo_S8192x1x512_S_d0_1_2 : S8192x1x512.ReducesTo [0, 1, 2] S_
  h_S_ : 0 < S_.numel
  bcast_S_S8192x1x1024 : S_.BroadcastsInDim S8192x1x1024 (![] : Fin 0 → Fin S8192x1x1024.rank)
  reducesTo_S8192x1x1024_S_d0_1_2 : S8192x1x1024.ReducesTo [0, 1, 2] S_
  bcast_S_S512x256 : S_.BroadcastsInDim S512x256 (![] : Fin 0 → Fin S512x256.rank)
  reducesTo_S512x256_S_d0_1 : S512x256.ReducesTo [0, 1] S_
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x768 : S_.BroadcastsInDim S1024x768 (![] : Fin 0 → Fin S1024x768.rank)
  reducesTo_S1024x768_S_d0_1 : S1024x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x768 .f32) (main_arg10 : FVec F S768 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x768 .f32 := Host.absf main_arg9
  let main_cst_16 : FVec F S_ .f32 := constant S_ .f32 0x7F800000#32
  let main_v45 : FVec F S1024x768 .f32 := broadcastInDim S1024x768 ![] bcast_S_S1024x768 main_cst_16
  let main_v46 : IVec S1024x768 1 := cmpf .olt main_v44 main_v45
  let main_c_17 : IVec S_ 1 := constantI S_ 1 1#1
  let main_v47 : IVec S_ 1 := (fun x v => Host.reduce IntOp.andi x v reducesTo_S1024x768_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768x1024 .f32) (main_arg5 : FVec F S1024 .f32) (main_arg6 : FVec F S1024x1024 .f32) (main_arg7 : FVec F S1024x1024 .f32) (main_arg8 : FVec F S1024 .f32) (main_arg9 : FVec F S1024x768 .f32) (main_arg10 : FVec F S768 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S768x1024 .f32 := Host.absf main_arg4
  let main_cst_6 : FVec F S_ .f32 := constant S_ .f32 0x7F800000#32
  let main_v20 : FVec F S768x1024 .f32 := broadcastInDim S768x1024 ![] bcast_S_S768x1024 main_cst_6
  let main_v21 : IVec S768x1024 1 := cmpf .olt main_v19 main_v20
  let main_c_7 : IVec S_ 1 := constantI S_ 1 1#1
  let main_v22 : IVec S_ 1 := (fun x v => Host.reduce IntOp.andi x v reducesTo_S768x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1x512 .f32) (main_arg1 : FVec F S8192x1x512 .f32) (main_arg2 : FVec F S8192x1x1024 .f32) (main_arg3 : FVec F S512x256 .f32) (main_arg4 : FVec F S768x1024 .f32) (main_arg5 : FVec F S1024 .f32) (main_arg6 : FVec F S1024x1024 .f32) (main_arg7 : FVec F S1024x1024 .f32) (main_arg8 : FVec F S1024 .f32) (main_arg9 : FVec F S1024x768 .f32) (main_arg10 : FVec F S768 .f32) : IVec S_ 1 :=
  let main_v0 : FVec F S8192x1x512 .f32 := Host.absf main_arg0
  let main_cst : FVec F S_ .f32 := constant S_ .f32 0x7F800000#32
  let main_v1 : FVec F S8192x1x512 .f32 := broadcastInDim S8192x1x512 ![] bcast_S_S8192x1x512 main_cst
  let main_v2 : IVec S8192x1x512 1 := cmpf .olt main_v0 main_v1
  let main_c : IVec S_ 1 := constantI S_ 1 1#1
  let main_v3 : IVec S_ 1 := (fun x v => Host.reduce IntOp.andi x v reducesTo_S8192x1x512_S_d0_1_2 h_S_) main_v2 main_c
  let main_v4 : FVec F S8192x1x512 .f32 := Host.absf main_arg1
  let main_cst_0 : FVec F S_ .f32 := constant S_ .f32 0x7F800000#32
  let main_v5 : FVec F S8192x1x512 .f32 := broadcastInDim S8192x1x512 ![] bcast_S_S8192x1x512 main_cst_0
  let main_v6 : IVec S8192x1x512 1 := cmpf .olt main_v4 main_v5
  let main_c_1 : IVec S_ 1 := constantI S_ 1 1#1
  let main_v7 : IVec S_ 1 := (fun x v => Host.reduce IntOp.andi x v reducesTo_S8192x1x512_S_d0_1_2 h_S_) main_v6 main_c_1
  let main_v8 : IVec S_ 1 := andi main_v3 main_v7
  let main_v9 : FVec F S8192x1x1024 .f32 := Host.absf main_arg2
  let main_cst_2 : FVec F S_ .f32 := constant S_ .f32 0x7F800000#32
  let main_v10 : FVec F S8192x1x1024 .f32 := broadcastInDim S8192x1x1024 ![] bcast_S_S8192x1x1024 main_cst_2
  let main_v11 : IVec S8192x1x1024 1 := cmpf .olt main_v9 main_v10
  let main_c_3 : IVec S_ 1 := constantI S_ 1 1#1
  let main_v12 : IVec S_ 1 := (fun x v => Host.reduce IntOp.andi x v reducesTo_S8192x1x1024_S_d0_1_2 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_v13 main_v16
-- ==== Kernel.lean ====
abbrev S8192x1x512 : Shape := ⟨3, ![8192, 1, 512]⟩
abbrev S8192x1x1024 : Shape := ⟨3, ![8192, 1, 1024]⟩
abbrev S512x256 : Shape := ⟨2, ![512, 256]⟩
abbrev S768x1024 : Shape := ⟨2, ![768, 1024]⟩
abbrev S1024 : Shape := ⟨1, ![1024]⟩
abbrev S1024x1024 : Shape := ⟨2, ![1024, 1024]⟩
abbrev S1024x768 : Shape := ⟨2, ![1024, 768]⟩
abbrev S768 : Shape := ⟨1, ![768]⟩
abbrev S_ : Shape := ⟨0, ![]⟩
abbrev S8192x512 : Shape := ⟨2, ![8192, 512]⟩
abbrev S8192x1024 : Shape := ⟨2, ![8192, 1024]⟩
abbrev S512x1024 : Shape := ⟨2, ![512, 1024]⟩
abbrev S256x1024 : Shape := ⟨2, ![256, 1024]⟩
abbrev S1x1024 : Shape := ⟨2, ![1, 1024]⟩
abbrev S1x768 : Shape := ⟨2, ![1, 768]⟩
abbrev S8192x256 : Shape := ⟨2, ![8192, 256]⟩
abbrev S512x512 : Shape := ⟨2, ![512, 512]⟩
abbrev S512x768 : Shape := ⟨2, ![512, 768]⟩
abbrev S8192x1x256 : Shape := ⟨3, ![8192, 1, 256]⟩

abbrev nBuf : Space → Nat
  | .hbm => 41
  | .vmem => 21
  | .smem => 0
  | _ => 0

abbrev bufTy : (tb : Table) → Fin (tcTables nBuf tb) → BufTy
  | .hbm, ⟨0, _⟩ => ⟨S8192x1x512, .f32⟩
  | .hbm, ⟨1, _⟩ => ⟨S8192x1x512, .f32⟩
  | .hbm, ⟨2, _⟩ => ⟨S8192x1x1024, .f32⟩
  | .hbm, ⟨3, _⟩ => ⟨S512x256, .f32⟩
  | .hbm, ⟨4, _⟩ => ⟨S768x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x768, .f32⟩
  | .hbm, ⟨10, _⟩ => ⟨S768, .f32⟩
  | .hbm, ⟨11, _⟩ => ⟨S512x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S512x256, .bf16⟩
  | .hbm, ⟨25, _⟩ => ⟨S512x1024, .f32⟩
  | .hbm, ⟨26, _⟩ => ⟨S512x1024, .bf16⟩
  | .hbm, ⟨27, _⟩ => ⟨S256x1024, .f32⟩
  | .hbm, ⟨28, _⟩ => ⟨S256x1024, .bf16⟩
  | .hbm, ⟨29, _⟩ => ⟨S1024x1024, .bf16⟩
  | .hbm, ⟨30, _⟩ => ⟨S1024x1024, .bf16⟩
  | .hbm, ⟨31, _⟩ => ⟨S1024x768, .bf16⟩
  | .hbm, ⟨32, _⟩ => ⟨S1x1024, .f32⟩
  | .hbm, ⟨33, _⟩ => ⟨S1x1024, .f32⟩
  | .hbm, ⟨34, _⟩ => ⟨S1x768, .f32⟩
  | .hbm, ⟨35, _⟩ => ⟨S8192x512, .f32⟩
  | .hbm, ⟨36, _⟩ => ⟨S8192x256, .f32⟩
  | .hbm, ⟨37, _⟩ => ⟨S8192x1024, .f32⟩
  | .hbm, ⟨38, _⟩ => ⟨S8192x1x512, .f32⟩
  | .hbm, ⟨39, _⟩ => ⟨S8192x1x256, .f32⟩
  | .hbm, ⟨40, _⟩ => ⟨S8192x1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x256, .bf16⟩
  | .local _ .vmem, ⟨7, _⟩ => ⟨S512x1024, .bf16⟩
  | .local _ .vmem, ⟨8, _⟩ => ⟨S256x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x768, .bf16⟩
  | .local _ .vmem, ⟨14, _⟩ => ⟨S1x768, .f32⟩
  | .local _ .vmem, ⟨15, _⟩ => ⟨S512x512, .f32⟩
  | .local _ .vmem, ⟨16, _⟩ => ⟨S512x512, .f32⟩
  | .local _ .vmem, ⟨17, _⟩ => ⟨S512x256, .f32⟩
  | .local _ .vmem, ⟨18, _⟩ => ⟨S512x256, .f32⟩
  | .local _ .vmem, ⟨19, _⟩ => ⟨S512x1024, .f32⟩
  | .local _ .vmem, ⟨20, _⟩ => ⟨S512x1024, .f32⟩
  | _, _ => ⟨S8192x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  reducesTo_S512x256_S_d0_1 : S512x256.ReducesTo [0, 1] S_
  h_S_ : 0 < S_.numel
  bcast_S_S512x256 : S_.BroadcastsInDim S512x256 (![] : Fin 0 → Fin S512x256.rank)
  shapeCasts_S8192x1x512_S8192x512 : S8192x1x512.ShapeCasts S8192x512
  shapeCasts_S8192x1x1024_S8192x1024 : S8192x1x1024.ShapeCasts S8192x1024
  bitsLt_bf16_f32 : FTy.bits .bf16 < FTy.bits .f32
  slices_S768x1024_S512x1024_0_0 : S768x1024.Slices ![0, 0] S512x1024
  slices_S768x1024_S256x1024_512_0 : S768x1024.Slices ![512, 0] S256x1024
  shapeCasts_S1024_S1x1024 : S1024.ShapeCasts S1x1024
  shapeCasts_S768_S1x768 : S768.ShapeCasts S1x768
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  slices_S512x768_o0_0_S512x512 : S512x768.Slices ![0, 0] S512x512
  slices_S512x768_o0_512_S512x256 : S512x768.Slices ![0, 512] S512x256
  shapeCasts_S8192x512_S8192x1x512 : S8192x512.ShapeCasts S8192x1x512
  shapeCasts_S8192x256_S8192x1x256 : S8192x256.ShapeCasts S8192x1x256
  shapeCasts_S8192x1024_S8192x1x1024 : S8192x1024.ShapeCasts S8192x1x1024
  dot_S512x512_S512x256_S512x256_1_0_0_1_n_n_wf : DotDims.WF S512x512 S512x256 S512x256 [1] [0] [0] [1] [] []
  dot_S512x512_S512x1024_S512x1024_1_0_0_1_n_n_wf : DotDims.WF S512x512 S512x1024 S512x1024 [1] [0] [0] [1] [] []
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  dot_S512x1024_S1024x768_S512x768_1_0_0_1_n_n_wf : DotDims.WF S512x1024 S1024x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x768.size a ≤ S1024x768.size a
  hwx0_10 : ∀ i : grid0.Coords, EltTy.bits .bf16 = 32 ∨ (Rect.block (s := S1024x768) S1024x768.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x768.size a ≤ S1x768.size a
  hwx0_11 : ∀ i : grid0.Coords, EltTy.bits .f32 = 32 ∨ (Rect.block (s := S1x768) S1x768.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S8192x512.size a
  hwx0_12 : ∀ i : grid0.Coords, EltTy.bits .f32 = 32 ∨ (Rect.block (s := S8192x512) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S8192x256.size a
  hwx0_13 : ∀ i : grid0.Coords, EltTy.bits .f32 = 32 ∨ (Rect.block (s := S8192x256) S512x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S8192x1024.size a
  hwx0_14 : ∀ i : grid0.Coords, EltTy.bits .f32 = 32 ∨ (Rect.block (s := S8192x1024) S512x1024.size (cc0_transform_14 i) (hinb0_14 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x768_S512x768_1_0_0_1_n_n : DotDims S512x1024 S1024x768 S512x768 where
  lhsContracting := [1]
  rhsContracting := [0]
  lhsNonContracting := [0]
  rhsNonContracting := [1]
  lhsBatch := []
  rhsBatch := []
  wf := dot_S512x1024_S1024x768_S512x768_1_0_0_1_n_n_wf

abbrev win0_0 : Pipeline.Window sig grid0 :=
  Pipeline.Window.ofSpec (Memref.whole main_v7) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1024x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S1x768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21_0) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v21_1) S512x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v21_2) S512x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x1x512 : Shape := ⟨3, ![8192, 1, 512]⟩
abbrev S8192x1x1024 : Shape := ⟨3, ![8192, 1, 1024]⟩
abbrev S512x256 : Shape := ⟨2, ![512, 256]⟩
abbrev S768x1024 : Shape := ⟨2, ![768, 1024]⟩
abbrev S1024 : Shape := ⟨1, ![1024]⟩
abbrev S1024x1024 : Shape := ⟨2, ![1024, 1024]⟩
abbrev S1024x768 : Shape := ⟨2, ![1024, 768]⟩
abbrev S768 : Shape := ⟨1, ![768]⟩
abbrev S_ : Shape := ⟨0, ![]⟩
abbrev S8192x1x256 : Shape := ⟨3, ![8192, 1, 256]⟩
abbrev S8192x1x768 : Shape := ⟨3, ![8192, 1, 768]⟩
abbrev S1x1x1024 : Shape := ⟨3, ![1, 1, 1024]⟩
abbrev S1x1x768 : Shape := ⟨3, ![1, 1, 768]⟩

abbrev nBuf : Space → Nat
  | .hbm => 46
  | .vmem => 0
  | .smem => 0
  | _ => 0

abbrev bufTy : (tb : Table) → Fin (tcTables nBuf tb) → BufTy
  | .hbm, ⟨0, _⟩ => ⟨S8192x1x512, .f32⟩
  | .hbm, ⟨1, _⟩ => ⟨S8192x1x512, .f32⟩
  | .hbm, ⟨2, _⟩ => ⟨S8192x1x1024, .f32⟩
  | .hbm, ⟨3, _⟩ => ⟨S512x256, .f32⟩
  | .hbm, ⟨4, _⟩ => ⟨S768x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x768, .f32⟩
  | .hbm, ⟨10, _⟩ => ⟨S768, .f32⟩
  | .hbm, ⟨11, _⟩ => ⟨S512x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S8192x1x256, .f32⟩
  | .hbm, ⟨22, _⟩ => ⟨S8192x1x768, .f32⟩
  | .hbm, ⟨23, _⟩ => ⟨S8192x1x1024, .f32⟩
  | .hbm, ⟨24, _⟩ => ⟨S1x1x1024, .f32⟩
  | .hbm, ⟨25, _⟩ => ⟨S8192x1x1024, .f32⟩
  | .hbm, ⟨26, _⟩ => ⟨S8192x1x1024, .f32⟩
  | .hbm, ⟨27, _⟩ => ⟨S_, .f32⟩
  | .hbm, ⟨28, _⟩ => ⟨S8192x1x1024, .f32⟩
  | .hbm, ⟨29, _⟩ => ⟨S8192x1x1024, .f32⟩
  | .hbm, ⟨30, _⟩ => ⟨S8192x1x1024, .f32⟩
  | .hbm, ⟨31, _⟩ => ⟨S8192x1x1024, .f32⟩
  | .hbm, ⟨32, _⟩ => ⟨S8192x1x1024, .f32⟩
  | .hbm, ⟨33, _⟩ => ⟨S1x1x1024, .f32⟩
  | .hbm, ⟨34, _⟩ => ⟨S8192x1x1024, .f32⟩
  | .hbm, ⟨35, _⟩ => ⟨S8192x1x1024, .f32⟩
  | .hbm, ⟨36, _⟩ => ⟨S8192x1x1024, .f32⟩
  | .hbm, ⟨37, _⟩ => ⟨S8192x1x768, .f32⟩
  | .hbm, ⟨38, _⟩ => ⟨S1x1x768, .f32⟩
  | .hbm, ⟨39, _⟩ => ⟨S8192x1x768, .f32⟩
  | .hbm, ⟨40, _⟩ => ⟨S8192x1x768, .f32⟩
  | .hbm, ⟨41, _⟩ => ⟨S_, .f32⟩
  | .hbm, ⟨42, _⟩ => ⟨S8192x1x768, .f32⟩
  | .hbm, ⟨43, _⟩ => ⟨S8192x1x768, .f32⟩
  | .hbm, ⟨44, _⟩ => ⟨S8192x1x512, .f32⟩
  | .hbm, ⟨45, _⟩ => ⟨S8192x1x256, .f32⟩
  | _, _ => ⟨S8192x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  reducesTo_S512x256_S_d0_1 : S512x256.ReducesTo [0, 1] S_
  h_S_ : 0 < S_.numel
  bcast_S_S512x256 : S_.BroadcastsInDim S512x256 (![] : Fin 0 → Fin S512x256.rank)
  concatenates_S8192x1x512_S8192x1x256_S8192x1x768_d2 : Shape.Concatenates [S8192x1x512, S8192x1x256] S8192x1x768 2
  bcast_S1024_S1x1x1024_2 : S1024.BroadcastsInDim S1x1x1024 (![2] : Fin 1 → Fin S1x1x1024.rank)
  bcast_S1x1x1024_S8192x1x1024_0_1_2 : S1x1x1024.BroadcastsInDim S8192x1x1024 (![0, 1, 2] : Fin 3 → Fin S8192x1x1024.rank)
  bcast_S_S8192x1x1024 : S_.BroadcastsInDim S8192x1x1024 (![] : Fin 0 → Fin S8192x1x1024.rank)
  bcast_S768_S1x1x768_2 : S768.BroadcastsInDim S1x1x768 (![2] : Fin 1 → Fin S1x1x768.rank)
  bcast_S1x1x768_S8192x1x768_0_1_2 : S1x1x768.BroadcastsInDim S8192x1x768 (![0, 1, 2] : Fin 3 → Fin S8192x1x768.rank)
  bcast_S_S8192x1x768 : S_.BroadcastsInDim S8192x1x768 (![] : Fin 0 → Fin S8192x1x768.rank)
  slices_S8192x1x768_S8192x1x512_0_0_0 : S8192x1x768.Slices ![0, 0, 0] S8192x1x512
  slices_S8192x1x768_S8192x1x256_0_0_512 : S8192x1x768.Slices ![0, 0, 512] S8192x1x256
  dot_S8192x1x512_S512x256_S8192x1x256_2_0_01_1_n_n_wf : DotDims.WF S8192x1x512 S512x256 S8192x1x256 [2] [0] [0, 1] [1] [] []
  dot_S8192x1x768_S768x1024_S8192x1x1024_2_0_01_1_n_n_wf : DotDims.WF S8192x1x768 S768x1024 S8192x1x1024 [2] [0] [0, 1] [1] [] []
  dot_S8192x1x1024_S1024x1024_S8192x1x1024_2_0_01_1_n_n_wf : DotDims.WF S8192x1x1024 S1024x1024 S8192x1x1024 [2] [0] [0, 1] [1] [] []
  dot_S8192x1x1024_S1024x768_S8192x1x768_2_0_01_1_n_n_wf : DotDims.WF S8192x1x1024 S1024x768 S8192x1x768 [2] [0] [0, 1] [1] [] []

variable [Facts₀]

def dot_S8192x1x512_S512x256_S8192x1x256_2_0_01_1_n_n : DotDims S8192x1x512 S512x256 S8192x1x256 where
  lhsContracting := [2]
  rhsContracting := [0]
  lhsNonContracting := [0, 1]
  rhsNonContracting := [1]
  lhsBatch := []
  rhsBatch := []
  wf := dot_S8192x1x512_S512x256_S8192x1x256_2_0_01_1_n_n_wf
def dot_S8192x1x768_S768x1024_S8192x1x1024_2_0_01_1_n_n : DotDims S8192x1x768 S768x1024 S8192x1x1024 where
  lhsContracting := [2]
  rhsContracting := [0]
  lhsNonContracting := [0, 1]
  rhsNonContracting := [1]
  lhsBatch := []
  rhsBatch := []
  wf := dot_S8192x1x768_S768x1024_S8192x1x1024_2_0_01_1_n_n_wf
def dot_S8192x1x1024_S1024x1024_S8192x1x1024_2_0_01_1_n_n : DotDims S8192x1x1024 S1024x1024 S8192x1x1024 where
  lhsContracting := [2]
  rhsContracting := [0]
  lhsNonContracting := [0, 1]
  rhsNonContracting := [1]
  lhsBatch := []
  rhsBatch := []
  wf := dot_S8192x1x1024_S1024x1024_S8192x1x1024_2_0_01_1_n_n_wf
def dot_S8192x1x1024_S1024x768_S8192x1x768_2_0_01_1_n_n : DotDims S8192x1x1024 S1024x768 S8192x1x768 where
  lhsContracting := [2]
  rhsContracting := [0]
  lhsNonContracting := [0, 1]
  rhsNonContracting := [1]
  lhsBatch := []
  rhsBatch := []
  wf := dot_S8192x1x1024_S1024x768_S8192x1x768_2_0_01_1_n_n_wf

class Facts : Prop extends Facts₀ where

variable [Facts]
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.Cell.lean ====
/-
  The recurrent cell both programs compute, as arrays of extended reals with ANY number M of rows.

  One row of the cell, for an input row x, a centre-state row c and a previous-state row h:

      ctx  = c · wc                                    (the context read from the centre state)
      a    = max (x · wa + ctx · wb + bpre) 0          (wa, wb: the rows of the input weights that meet x and ctx)
      h'   = tanh (a · wx + h · wh + brnn)             (the new state)
      out  = max (h' · wp + bpost) 0                   (the module's output)

  Every row is computed from that row of x, c, h alone. So a block of rows put through the cell gives the
  same rows as the whole arrays put through it (`sameRow_…`): a computation done one block of rows at a time
  is the computation on the whole arrays. No finiteness is needed: the two sides are the same sums of the same
  products in the same order.
-/
import proofs.«164933_j38611755991897_2_alg».proof.Proof.LibRowsTimes

noncomputable section

namespace Cert.Cell

open Idealize.ShloMosaic Idealize.ShloMosaic.ValueIdx Cert.Dense

/-- An [a, b] array of extended reals. -/
abbrev Mat (a b : Nat) : Type := (⟨2, ![a, b]⟩ : Shape).Idx → EReal

variable {M R A B C D E : Nat}

/-- The rectified pre-activation `max (x · wa + ctx · wb + b) 0`, the bias `b` added to every row. -/
def feed (x : Mat M A) (ctx : Mat M B) (wa : Mat A C) (wb : Mat B C) (b : Fin C → EReal) : Mat M C :=
  relu fun i => (rowsTimes x wa i + rowsTimes ctx wb i) + b (i 1 : Fin C)

/-- The new state `tanh (a · wx + h · wh + b)`. -/
def nextState (a : Mat M C) (h : Mat M D) (wx : Mat C D) (wh : Mat D D) (b : Fin D → EReal) : Mat M D :=
  fun i => Ideal.tanh ((rowsTimes a wx i + rowsTimes h wh i) + b (i 1 : Fin D))

/-- The output `max (s · wp + b) 0`. -/
def emit (s : Mat M D) (wp : Mat D E) (b : Fin E → EReal) : Mat M E :=
  relu fun i => rowsTimes s wp i + b (i 1 : Fin E)

/-- The new state from the three input arrays: the context, the rectified layer, the recurrent layer. -/
def state (x : Mat M A) (c : Mat M A) (h : Mat M D) (wc : Mat A B) (wa : Mat A C) (wb : Mat B C) (bpre : Fin C → EReal)
    (wx : Mat C D) (wh : Mat D D) (brnn : Fin D → EReal) : Mat M D :=
  nextState (feed x (rowsTimes c wc) wa wb bpre) h wx wh brnn

/-- Row `p` of `a'` is row `r` of `a`. -/
def SameRow {K : Nat} (a' : Mat R K) (a : Mat M K) (p : Fin R) (r : Fin M) : Prop :=
  ∀ k : Fin K, a' (ix2 p k) = a (ix2 r k)

/-- Rows of a product are products of rows. -/
theorem sameRow_rowsTimes {K N : Nat} {a' : Mat R K} {a : Mat M K} {p : Fin R} {r : Fin M} (h : SameRow a' a p r)
    (w : Mat K N) : SameRow (rowsTimes a' w) (rowsTimes a w) p r :=
  fun q => rowsTimes_of_rows a w a' w (ix2 p q) (ix2 r q) h (fun _ => rfl)

/-- The rectified layer of a block's row is that of the whole arrays' row. -/
theorem sameRow_feed {x' : Mat R A} {x : Mat M A} {ctx' : Mat R B} {ctx : Mat M B} {p : Fin R} {r : Fin M}
    (hx : SameRow x' x p r) (hc : SameRow ctx' ctx p r) (wa : Mat A C) (wb : Mat B C) (b : Fin C → EReal) :
    SameRow (feed x' ctx' wa wb b) (feed x ctx wa wb b) p r := fun q => by
  show max ((rowsTimes x' wa (ix2 p q) + rowsTimes ctx' wb (ix2 p q)) + b q) _
    = max ((rowsTimes x wa (ix2 r q) + rowsTimes ctx wb (ix2 r q)) + b q) _
  rw [sameRow_rowsTimes hx wa q, sameRow_rowsTimes hc wb q]

/-- The new state of a block's row is that of the whole arrays' row. -/
theorem sameRow_nextState {a' : Mat R C} {a : Mat M C} {h' : Mat R D} {h : Mat M D} {p : Fin R} {r : Fin M}
    (ha : SameRow a' a p r) (hh : SameRow h' h p r) (wx : Mat C D) (wh : Mat D D) (b : Fin D → EReal) :
    SameRow (nextState a' h' wx wh b) (nextState a h wx wh b) p r := fun q => by
  show Ideal.tanh ((rowsTimes a' wx (ix2 p q) + rowsTimes h' wh (ix2 p q)) + b q)
    = Ideal.tanh ((rowsTimes a wx (ix2 r q) + rowsTimes h wh (ix2 r q)) + b q)
  rw [sameRow_rowsTimes ha wx q, sameRow_rowsTimes hh wh q]

/-- The output of a block's row is that of the whole arrays' row. -/
theorem sameRow_emit {s' : Mat R D} {s : Mat M D} {p : Fin R} {r : Fin M} (hs : SameRow s' s p r)
    (wp : Mat D E) (b : Fin E → EReal) : SameRow (emit s' wp b) (emit s wp b) p r := fun q => by
  show max (rowsTimes s' wp (ix2 p q) + b q) _ = max (rowsTimes s wp (ix2 r q) + b q) _
  rw [sameRow_rowsTimes hs wp q]

/-- The cell on a block of rows gives the whole arrays' rows. -/
theorem sameRow_state {x' c' : Mat R A} {x c : Mat M A} {h' : Mat R D} {h : Mat M D} {p : Fin R} {r : Fin M}
    (hx : SameRow x' x p r) (hc : SameRow c' c p r) (hh : SameRow h' h p r)
    (wc : Mat A B) (wa : Mat A C) (wb : Mat B C) (bpre : Fin C → EReal) (wx : Mat C D) (wh : Mat D D) (brnn : Fin D → EReal) :
    SameRow (state x' c' h' wc wa wb bpre wx wh brnn) (state x c h wc wa wb bpre wx wh brnn) p r :=
  sameRow_nextState (sameRow_feed hx (sameRow_rowsTimes hc wc) wa wb bpre) hh wx wh brnn

end Cert.Cell

end
-- ==== Proof.LibPlainProduct.lean ====
/-
  A matrix unit's product with the plain dimension numbers, read on the extended reals — general in the
  extents M, K, N.

  The plain dimension numbers contract the second axis of an [M, K] left operand against the first axis of a
  [K, N] right operand, with no batch axis. At an output index (r, j) and contraction coordinate k the two
  operand indices are then (r, k) and (k, j), so the product accumulated into the zero array is, entry by entry,
  the sum over k of l (r, k) · w (k, j): the array `rowsTimes l w`. The same holds of any record of dimension
  numbers equal to the plain one, whatever its own well-formedness proof.
-/
import proofs.«164933_j38611755991897_2_alg».proof.Proof.LibRowsTimes

noncomputable section

namespace Cert.Dense

open Idealize.ShloMosaic Idealize.ShloMosaic.ValueIdx

variable {M K N : Nat}

/-- The left operand's row coordinate is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The left operand's index at output index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0 : Fin M) k := by
  have hk := contrEquiv1_symm_val (DotDims.plain M K N) K rfl rfl k
  funext a
  apply Fin.ext
  match a with
  | ⟨0, _⟩ => exact plain_lhs_row j _
  | ⟨1, _⟩ => exact (plain_lhs_col j _).trans hk

/-- The right operand's index there is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1 : Fin N) := by
  have hk := contrEquiv1_symm_val (DotDims.plain M K N) K rfl rfl k
  funext a
  apply Fin.ext
  match a with
  | ⟨0, _⟩ => exact (plain_rhs_row j _).trans hk
  | ⟨1, _⟩ => exact plain_rhs_col j _

/-- The product into the zero array is `rowsTimes`, whatever the two operands' float formats. -/
theorem matmul_plain_zero {φ₁ φ₂ : FTy} (prec : Option ContractPrecision)
    (l : FVec Ideal ⟨2, ![M, K]⟩ φ₁) (w : FVec Ideal ⟨2, ![K, N]⟩ φ₂) :
    matmul (DotDims.plain M K N) prec l w (constant (F := Ideal) ⟨2, ![M, N]⟩ .f32 0x00000000#32) = rowsTimes l w := by
  funext j
  simp only [matmul]
  rw [Ideal.matmul_constant_zero_apply]
  exact contraction_eq (DotDims.plain M K N) rfl rfl l w l w j j
    (fun k => congrArg l (plain_lhsIdx j k)) (fun k => congrArg w (plain_rhsIdx j k))

/-- The same of a record `d` of dimension numbers that is the plain one. -/
theorem matmul_zero_of_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (w : FVec Ideal ⟨2, ![K, N]⟩ φ₂) :
    matmul d prec l w (constant (F := Ideal) ⟨2, ![M, N]⟩ .f32 0x00000000#32) = rowsTimes l w := by
  subst hd
  exact matmul_plain_zero prec l w

end Cert.Dense

end
-- ==== Proof.Body.lean ====
/-
  What the kernel's body computes on one block of 512 rows, at the ideal values: the cell's layers
  (Cell.lean) of the blocks it loads.

  At the ideal values a change of float format is the identity, each matrix-unit product into the zero array
  is the plain product of its operands, and a [1, n] bias block broadcast along the rows adds its one row to
  every row. So the value the body stores as the new state is `state` of the three row blocks and the weight
  blocks, and the two output stores are the left 512 and the right 256 columns of `emit` of that state.
-/
import proofs.«164933_j38611755991897_2_alg».proof.Proof.Gen.KernelIdeal.Skeleton
import proofs.«164933_j38611755991897_2_alg».proof.Proof.Cell
import proofs.«164933_j38611755991897_2_alg».proof.Proof.LibPlainProduct
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Dense Cert.Cell

/-- The one row of a [1, n] array. -/
def row1 {n : Nat} (b : Mat 1 n) : Fin n → EReal := fun q => b (ix2 0 q)

/-- A [1, n] block broadcast along m rows reads its one row at every row. -/
theorem broadcast_row {m n : Nat} (b : Mat 1 n) (h : (⟨2, ![1, n]⟩ : Shape).Broadcasts ⟨2, ![m, n]⟩) (i : (⟨2, ![m, n]⟩ : Shape).Idx) :
    broadcastTo ⟨2, ![m, n]⟩ b h i = row1 b (i 1 : Fin n) :=
  broadcastTo_apply b h i (ix2 0 (i 1 : Fin n)) fun a => by
    match a with
    | ⟨0, _⟩ => rfl
    | ⟨1, _⟩ =>
      show (i 1).val = if n = 1 then 0 else (i 1).val
      split
      · next hn => have := (i 1).isLt; simp only [Matrix.cons_val_one, Matrix.cons_val_zero] at this; omega
      · rfl

/-- At the ideal values a narrowing of the float format changes nothing. -/
theorem truncf_ideal {s : Shape} {φ ψ : FTy} (a : FVec Ideal s φ) (h : ψ.bits < φ.bits) :
    (truncf ψ a h : FVec Ideal s ψ) = a := rfl

/-- A bias block added to every row and the result rectified against the broadcast zero. -/
theorem relu_bias {m n : Nat} (y : Mat m n) (b : Mat 1 n) (h : (⟨2, ![1, n]⟩ : Shape).Broadcasts ⟨2, ![m, n]⟩) :
    maximumf (F := Ideal) (φ := .f32) (addf (F := Ideal) (φ := .f32) y (broadcastTo ⟨2, ![m, n]⟩ b h))
        (broadcast ⟨2, ![m, n]⟩ (FloatOps.ofBits (F := Ideal) .f32 0x00000000#32))
      = relu fun i => y i + row1 b (i 1 : Fin n) :=
  funext fun i => by
    show max (y i + broadcastTo ⟨2, ![m, n]⟩ b h i) _ = max (y i + row1 b (i 1 : Fin n)) _
    rw [broadcast_row]
    rfl

/-- THE NEW STATE the body stores: the cell's `state` of the three row blocks and the weight blocks. -/
theorem pay_state (x0 x1 : Vec Ideal S512x512 .f32) (x2 : Vec Ideal S512x1024 .f32) (x3 : Vec Ideal S512x256 .bf16)
    (x4 : Vec Ideal S512x1024 .bf16) (x5 : Vec Ideal S256x1024 .bf16) (x6 : Vec Ideal S1x1024 .f32)
    (x7 x8 : Vec Ideal S1024x1024 .bf16) (x9 : Vec Ideal S1x1024 .f32) :
    k0_pay1 (F := Ideal) (k0_pay5 x0 x1 x2 x3 x4 x5 x6 x7 x8) x9
      = state (M := 512) x0 x1 x2 x3 x4 x5 (row1 x6) x7 x8 (row1 x9) := by
  funext j
  unfold k0_pay1 k0_pay5
  simp only [shapeCast_self, truncf_ideal]
  rw [matmul_zero_of_plain dot_S512x512_S512x256_S512x256_1_0_0_1_n_n rfl,
    matmul_zero_of_plain dot_S512x512_S512x1024_S512x1024_1_0_0_1_n_n rfl,
    matmul_zero_of_plain dot_S512x256_S256x1024_S512x1024_1_0_0_1_n_n rfl,
    matmul_zero_of_plain dot_S512x1024_S1024x1024_S512x1024_1_0_0_1_n_n rfl,
    matmul_zero_of_plain dot_S512x1024_S1024x1024_S512x1024_1_0_0_1_n_n rfl,
    relu_bias]
  show Ideal.tanh ((rowsTimes _ x7 j + rowsTimes x2 x8 j) + broadcastTo S512x1024 x9 broadcasts_S1x1024_S512x1024 j) = _
  rw [broadcast_row]
  rfl

/-- THE OUTPUT before it is cut in two: `emit` of the value stored as the new state. -/
theorem pay_out (s : FVec Ideal S512x1024 .f32) (x9 : Vec Ideal S1x1024 .f32) (x10 : Vec Ideal S1024x768 .bf16)
    (x11 : Vec Ideal S1x768 .f32) :
    k0_pay2 (F := Ideal) s x9 x10 x11 = emit (M := 512) (k0_pay1 (F := Ideal) s x9) x10 (row1 x11) := by
  unfold k0_pay2
  simp only [shapeCast_self, truncf_ideal]
  rw [matmul_zero_of_plain dot_S512x1024_S1024x768_S512x768_1_0_0_1_n_n rfl, relu_bias]
  rfl

/-- The first store's value is the output's columns 0…511. -/
theorem pay_left (s : FVec Ideal S512x1024 .f32) (x9 : Vec Ideal S1x1024 .f32) (x10 : Vec Ideal S1024x768 .bf16)
    (x11 : Vec Ideal S1x768 .f32) (j : S512x512.Idx) :
    k0_pay3 (F := Ideal) s x9 x10 x11 j
      = k0_pay2 (F := Ideal) s x9 x10 x11 (ix2 (j 0 : Fin 512) (Fin.castAdd 256 (j 1 : Fin 512) : Fin 768)) := by
  unfold k0_pay3
  refine extractStridedSlice_apply (s := S512x768) (t := S512x512) ![0, 0] _ slices_S512x768_o0_0_S512x512 j _ fun a => ?_
  match a with
  | ⟨0, _⟩ => show (j 0).val = 0 + (j 0).val; omega
  | ⟨1, _⟩ => show (j 1).val = 0 + (j 1).val; omega

/-- The second store's value is the output's columns 512…767. -/
theorem pay_right (s : FVec Ideal S512x1024 .f32) (x9 : Vec Ideal S1x1024 .f32) (x10 : Vec Ideal S1024x768 .bf16)
    (x11 : Vec Ideal S1x768 .f32) (j : S512x256.Idx) :
    k0_pay4 (F := Ideal) s x9 x10 x11 j
      = k0_pay2 (F := Ideal) s x9 x10 x11 (ix2 (j 0 : Fin 512) (Fin.natAdd 512 (j 1 : Fin 256) : Fin 768)) := by
  unfold k0_pay4
  refine extractStridedSlice_apply (s := S512x768) (t := S512x256) ![0, 512] _ slices_S512x768_o0_512_S512x256 j _ fun a => ?_
  match a with
  | ⟨0, _⟩ => show (j 0).val = 0 + (j 0).val; omega
  | ⟨1, _⟩ => show 512 + (j 1).val = 512 + (j 1).val; rfl

/-- The output of a block, from the blocks the body loads. -/
theorem out_cell (x0 x1 : Vec Ideal S512x512 .f32) (x2 : Vec Ideal S512x1024 .f32) (x3 : Vec Ideal S512x256 .bf16)
    (x4 : Vec Ideal S512x1024 .bf16) (x5 : Vec Ideal S256x1024 .bf16) (x6 : Vec Ideal S1x1024 .f32)
    (x7 x8 : Vec Ideal S1024x1024 .bf16) (x9 : Vec Ideal S1x1024 .f32) (x10 : Vec Ideal S1024x768 .bf16)
    (x11 : Vec Ideal S1x768 .f32) :
    k0_pay2 (F := Ideal) (k0_pay5 x0 x1 x2 x3 x4 x5 x6 x7 x8) x9 x10 x11
      = emit (M := 512) (state (M := 512) x0 x1 x2 x3 x4 x5 (row1 x6) x7 x8 (row1 x9)) x10 (row1 x11) := by
  rw [pay_out, pay_state]

end Cert.KernelIdeal.Body

end
-- ==== Proof.Whole.lean ====
/-
  The three results as functions of the programs' argument arrays.

  The arguments: `inputs` and `center_state` of shape [8192, 1, 512], `module_state` of shape [8192, 1, 1024],
  the clipped reading weights `wc` [512, 256] (both programs compute them from W_read by the same operations, so
  they enter here as one array), the input weights [768, 1024], the recurrent weights [1024, 1024] twice, the
  output weights [1024, 768] and the three biases.

  The unit middle axis carries nothing: row r of a [8192, 1, n] array is the entries (r, 0, ·). The input weights'
  first 512 rows meet `inputs` and their last 256 rows meet the context, because the layer's input is the row
  (inputs, context) laid side by side: a sum over 768 = 512 + 256 consecutive indices is the sum over the first 512
  plus the sum over the last 256 (`sum_split`).

  The results: the new state (r, 0, j) ↦ state (r, j), and the output's columns 0…511 and 512…767.
-/
import proofs.«164933_j38611755991897_2_alg».proof.Proof.Cell

noncomputable section

namespace Cert.Whole

open Idealize.ShloMosaic Idealize.ShloMosaic.ValueIdx Cert.Dense Cert.Cell

/-- An [a, b, c] array of extended reals. -/
abbrev Cube (a b c : Nat) : Type := (⟨3, ![a, b, c]⟩ : Shape).Idx → EReal
/-- A length-n array of extended reals. -/
abbrev Line (n : Nat) : Type := (⟨1, ![n]⟩ : Shape).Idx → EReal

/-- An [m, 1, n] array read as [m, n]. -/
def flat {m n : Nat} (x : Cube m 1 n) : Mat m n := fun i => x (ix3 (i 0 : Fin m) (0 : Fin 1) (i 1 : Fin n))

/-- A length-n array by its coordinate. -/
def vec {n : Nat} (b : Line n) : Fin n → EReal := fun q => b (ix1 q)

/-- The first 512 of 768 rows. -/
def top {n : Nat} (w : Mat 768 n) : Mat 512 n := fun i => w (ix2 (Fin.castAdd 256 (i 0 : Fin 512) : Fin 768) (i 1 : Fin n))

/-- The last 256 of 768 rows. -/
def bottom {n : Nat} (w : Mat 768 n) : Mat 256 n := fun i => w (ix2 (Fin.natAdd 512 (i 0 : Fin 256) : Fin 768) (i 1 : Fin n))

/-- A sum over 768 consecutive indices is the sum over the first 512 plus the sum over the last 256. -/
theorem sum_split (f : Fin 768 → EReal) :
    ∑ k : Fin 768, f k = ∑ k : Fin 512, f (Fin.castAdd 256 k) + ∑ k : Fin 256, f (Fin.natAdd 512 k) :=
  Fin.sum_univ_add (a := 512) (b := 256) f

variable (a0 a1 : Cube 8192 1 512) (a2 : Cube 8192 1 1024) (wc : Mat 512 256) (a4 : Mat 768 1024) (a5 : Line 1024)
  (a6 a7 : Mat 1024 1024) (a8 : Line 1024) (a9 : Mat 1024 768) (a10 : Line 768)

/-- The new state of every row, as an [8192, 1024] array. -/
def newState : Mat 8192 1024 :=
  state (flat a0) (flat a1) (flat a2) wc (top a4) (bottom a4) (vec a5) a6 a7 (vec a8)

/-- The module's output of every row, as an [8192, 768] array. -/
def output : Mat 8192 768 := emit (newState a0 a1 a2 wc a4 a5 a6 a7 a8) a9 (vec a10)

/-- Result 0: the output's columns 0…511, as [8192, 1, 512]. -/
def result0 : Cube 8192 1 512 := fun i =>
  output a0 a1 a2 wc a4 a5 a6 a7 a8 a9 a10 (ix2 (i 0 : Fin 8192) (Fin.castAdd 256 (i 2 : Fin 512) : Fin 768))

/-- Result 1: the output's columns 512…767, as [8192, 1, 256]. -/
def result1 : Cube 8192 1 256 := fun i =>
  output a0 a1 a2 wc a4 a5 a6 a7 a8 a9 a10 (ix2 (i 0 : Fin 8192) (Fin.natAdd 512 (i 2 : Fin 256) : Fin 768))

/-- Result 2: the new state, as [8192, 1, 1024]. -/
def result2 : Cube 8192 1 1024 := fun i => newState a0 a1 a2 wc a4 a5 a6 a7 a8 (ix2 (i 0 : Fin 8192) (i 2 : Fin 1024))

end Cert.Whole

end
-- ==== Proof.Entry.lean ====
/-
  The arrays the kernel's twelve input windows stage, as functions of the program's arguments.

  Before the kernel is launched the program drops the unit middle axis of its three [8192, 1, n] arguments,
  scales W_read by 1 / max(‖W_read‖, 1) (`clipped`: the chain of operations both programs apply, carried as one
  function and never opened), cuts the input weights into their first 512 and last 256 rows, lays each bias out as
  one row, and narrows the weights' float format, which at the ideal values changes nothing.
-/
import proofs.«164933_j38611755991897_2_alg».proof.Proof.Gen.KernelIdeal.Frame
import proofs.«164933_j38611755991897_2_alg».proof.Proof.Whole
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Cell Cert.Whole

/-- W_read scaled by 1 / max(√(∑ W_read²), 1): the reading weights with their norm clipped to 1. -/
def clipped (w : FVec Ideal S512x256 .f32) : FVec Ideal S512x256 .f32 :=
  mulf w (broadcastInDim S512x256 ![] bcast_S_S512x256
    (Host.divf (constant S_ .f32 0x3F800000#32)
      (maximumf (Host.sqrt (Host.reduceAdd (mulf w w) (constant S_ .f32 0x00000000#32) reducesTo_S512x256_S_d0_1 h_S_))
        (constant S_ .f32 0x3F800000#32))))

variable (m : (ℓ : Loc nD τ sig) → Buf (Elt Ideal) ℓ) (c : Dev nD)

/-- Window 0's array: argument 0, its unit middle axis dropped. -/
theorem stage0 : (V m c main_v7 : S8192x512.Idx → EReal) = flat (m ((c : Thread nD τ).loc main_arg0)) := by
  have e : (V m c main_v7 : S8192x512.Idx → EReal) = shapeCast S8192x512 (m ((c : Thread nD τ).loc main_arg0)) shapeCasts_S8192x1x512_S8192x512 := by
    show StableHlo.after hostOps0 (fun b => m (c, b)) (Proc.devRef .tc main_v7) = _
    after_results
    rfl
  rw [e]
  funext i
  refine shapeCast_apply (s := S8192x1x512) (t := S8192x512) _ _ i (ix3 (i 0 : Fin 8192) (0 : Fin 1) (i 1 : Fin 512)) ?_
  rw [Shape.rowMajor_val_three, Shape.rowMajor_val_two]
  show ((i 0).val * 1 + 0) * 512 + (i 1).val = (i 0).val * 512 + (i 1).val
  omega

/-- Window 1's array: argument 1, its unit middle axis dropped. -/
theorem stage1 : (V m c main_v8 : S8192x512.Idx → EReal) = flat (m ((c : Thread nD τ).loc main_arg1)) := by
  have e : (V m c main_v8 : S8192x512.Idx → EReal) = shapeCast S8192x512 (m ((c : Thread nD τ).loc main_arg1)) shapeCasts_S8192x1x512_S8192x512 := by
    show StableHlo.after hostOps0 (fun b => m (c, b)) (Proc.devRef .tc main_v8) = _
    after_results
    rfl
  rw [e]
  funext i
  refine shapeCast_apply (s := S8192x1x512) (t := S8192x512) _ _ i (ix3 (i 0 : Fin 8192) (0 : Fin 1) (i 1 : Fin 512)) ?_
  rw [Shape.rowMajor_val_three, Shape.rowMajor_val_two]
  show ((i 0).val * 1 + 0) * 512 + (i 1).val = (i 0).val * 512 + (i 1).val
  omega

/-- Window 2's array: argument 2, its unit middle axis dropped. -/
theorem stage2 : (V m c main_v9 : S8192x1024.Idx → EReal) = flat (m ((c : Thread nD τ).loc main_arg2)) := by
  have e : (V m c main_v9 : S8192x1024.Idx → EReal) = shapeCast S8192x1024 (m ((c : Thread nD τ).loc main_arg2)) shapeCasts_S8192x1x1024_S8192x1024 := by
    show StableHlo.after hostOps0 (fun b => m (c, b)) (Proc.devRef .tc main_v9) = _
    after_results
    rfl
  rw [e]
  funext i
  refine shapeCast_apply (s := S8192x1x1024) (t := S8192x1024) _ _ i (ix3 (i 0 : Fin 8192) (0 : Fin 1) (i 1 : Fin 1024)) ?_
  rw [Shape.rowMajor_val_three, Shape.rowMajor_val_two]
  show ((i 0).val * 1 + 0) * 1024 + (i 1).val = (i 0).val * 1024 + (i 1).val
  omega

/-- Window 3's array: the clipped reading weights. -/
theorem stage3 : (V m c main_v10 : S512x256.Idx → EReal) = clipped (m ((c : Thread nD τ).loc main_arg3)) := by
  show StableHlo.after hostOps0 (fun b => m (c, b)) (Proc.devRef .tc main_v10) = _
  after_results
  rfl

/-- Window 4's array: the input weights' first 512 rows. -/
theorem stage4 : (V m c main_v12 : S512x1024.Idx → EReal) = top (m ((c : Thread nD τ).loc main_arg4)) := by
  have e : (V m c main_v12 : S512x1024.Idx → EReal)
      = extractStridedSlice S512x1024 ![0, 0] (m ((c : Thread nD τ).loc main_arg4)) slices_S768x1024_S512x1024_0_0 := by
    show StableHlo.after hostOps0 (fun b => m (c, b)) (Proc.devRef .tc main_v12) = _
    after_results
    rfl
  rw [e]
  funext i
  refine extractStridedSlice_apply (s := S768x1024) (t := S512x1024) ![0, 0] _ _ i
    (ix2 (Fin.castAdd 256 (i 0 : Fin 512) : Fin 768) (i 1 : Fin 1024)) fun a => ?_
  match a with
  | ⟨0, _⟩ => show (i 0).val = 0 + (i 0).val; omega
  | ⟨1, _⟩ => show (i 1).val = 0 + (i 1).val; omega

/-- Window 5's array: the input weights' last 256 rows. -/
theorem stage5 : (V m c main_v14 : S256x1024.Idx → EReal) = bottom (m ((c : Thread nD τ).loc main_arg4)) := by
  have e : (V m c main_v14 : S256x1024.Idx → EReal)
      = extractStridedSlice S256x1024 ![512, 0] (m ((c : Thread nD τ).loc main_arg4)) slices_S768x1024_S256x1024_512_0 := by
    show StableHlo.after hostOps0 (fun b => m (c, b)) (Proc.devRef .tc main_v14) = _
    after_results
    rfl
  rw [e]
  funext i
  refine extractStridedSlice_apply (s := S768x1024) (t := S256x1024) ![512, 0] _ _ i
    (ix2 (Fin.natAdd 512 (i 0 : Fin 256) : Fin 768) (i 1 : Fin 1024)) fun a => ?_
  match a with
  | ⟨0, _⟩ => show 512 + (i 0).val = 512 + (i 0).val; rfl
  | ⟨1, _⟩ => show (i 1).val = 0 + (i 1).val; omega

/-- Window 6's array is b_pre as one row: its row is the bias. -/
theorem stage6 : (fun q : Fin 1024 => (V m c main_v18 : S1x1024.Idx → EReal) (ix2 (0 : Fin 1) q)) = vec (m ((c : Thread nD τ).loc main_arg5)) := by
  have e : (V m c main_v18 : S1x1024.Idx → EReal) = shapeCast S1x1024 (m ((c : Thread nD τ).loc main_arg5)) shapeCasts_S1024_S1x1024 := by
    show StableHlo.after hostOps0 (fun b => m (c, b)) (Proc.devRef .tc main_v18) = _
    after_results
    rfl
  rw [e]
  funext q
  refine shapeCast_apply (s := S1024) (t := S1x1024) _ _ (ix2 (0 : Fin 1) q) (ix1 q) ?_
  rw [Shape.rowMajor_val_one, Shape.rowMajor_val_two]
  show q.val = 0 * 1024 + q.val
  omega

/-- Window 7's array: Wx, its float format narrowed, which changes nothing at the ideal values. -/
theorem stage7 : (V m c main_v15 : S1024x1024.Idx → EReal) = m ((c : Thread nD τ).loc main_arg6) := by
  show StableHlo.after hostOps0 (fun b => m (c, b)) (Proc.devRef .tc main_v15) = _
  after_results
  rfl

/-- Window 8's array: Wh, its float format narrowed, which changes nothing at the ideal values. -/
theorem stage8 : (V m c main_v16 : S1024x1024.Idx → EReal) = m ((c : Thread nD τ).loc main_arg7) := by
  show StableHlo.after hostOps0 (fun b => m (c, b)) (Proc.devRef .tc main_v16) = _
  after_results
  rfl

/-- Window 9's array is b_rnn as one row: its row is the bias. -/
theorem stage9 : (fun q : Fin 1024 => (V m c main_v19 : S1x1024.Idx → EReal) (ix2 (0 : Fin 1) q)) = vec (m ((c : Thread nD τ).loc main_arg8)) := by
  have e : (V m c main_v19 : S1x1024.Idx → EReal) = shapeCast S1x1024 (m ((c : Thread nD τ).loc main_arg8)) shapeCasts_S1024_S1x1024 := by
    show StableHlo.after hostOps0 (fun b => m (c, b)) (Proc.devRef .tc main_v19) = _
    after_results
    rfl
  rw [e]
  funext q
  refine shapeCast_apply (s := S1024) (t := S1x1024) _ _ (ix2 (0 : Fin 1) q) (ix1 q) ?_
  rw [Shape.rowMajor_val_one, Shape.rowMajor_val_two]
  show q.val = 0 * 1024 + q.val
  omega

/-- Window 10's array: W_post, its float format narrowed, which changes nothing at the ideal values. -/
theorem stage10 : (V m c main_v17 : S1024x768.Idx → EReal) = m ((c : Thread nD τ).loc main_arg9) := by
  show StableHlo.after hostOps0 (fun b => m (c, b)) (Proc.devRef .tc main_v17) = _
  after_results
  rfl

/-- Window 11's array is b_post as one row: its row is the bias. -/
theorem stage11 : (fun q : Fin 768 => (V m c main_v20 : S1x768.Idx → EReal) (ix2 (0 : Fin 1) q)) = vec (m ((c : Thread nD τ).loc main_arg10)) := by
  have e : (V m c main_v20 : S1x768.Idx → EReal) = shapeCast S1x768 (m ((c : Thread nD τ).loc main_arg10)) shapeCasts_S768_S1x768 := by
    show StableHlo.after hostOps0 (fun b => m (c, b)) (Proc.devRef .tc main_v20) = _
    after_results
    rfl
  rw [e]
  funext q
  refine shapeCast_apply (s := S768) (t := S1x768) _ _ (ix2 (0 : Fin 1) q) (ix1 q) ?_
  rw [Shape.rowMajor_val_one, Shape.rowMajor_val_two]
  show q.val = 0 * 768 + q.val
  omega

end Cert.KernelIdeal.Entry

end
-- ==== Proof.Blocks.lean ====
/-
  From what each grid point writes back to the three result arrays as whole-array functions of the arguments.

  The grid has 16 points; point t stages rows 512 t … 512 t + 511 of the three row arrays and the whole of every
  weight array, and writes back the same rows of the three results. Row p of a block is row 512 t + p of its array,
  so by the cell's row-locality (Cell.lean) what point t writes back is rows 512 t … of the cell applied to the
  WHOLE arrays. The 16 blocks tile each result array (row r lies in block r / 512), so each result array ends as
  that whole-array function.
-/
import proofs.«164933_j38611755991897_2_alg».proof.Proof.Gen.KernelIdeal.Frame
import proofs.«164933_j38611755991897_2_alg».proof.Proof.Body
import proofs.«164933_j38611755991897_2_alg».proof.Proof.Entry
import proofs.«164933_j38611755991897_2_alg».proof.Proof.Whole
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.Dense Cert.Cell Cert.Whole Cert.KernelIdeal.Body Cert.KernelIdeal.Entry

variable (m : (ℓ : Loc nD τ sig) → Buf (Elt Ideal) ℓ) (c : Dev nD)

/-- The zero offset of a block read or stored whole. -/
theorem hz : (![0, 0] : Fin 2 → Nat) = fun _ => 0 := funext fun a => by fin_cases a <;> rfl

/-- The new state of all 8192 rows, from the arguments as launched. -/
def stateOf : Mat 8192 1024 :=
  newState (m ((c : Thread nD τ).loc main_arg0)) (m ((c : Thread nD τ).loc main_arg1)) (m ((c : Thread nD τ).loc main_arg2)) (clipped (m ((c : Thread nD τ).loc main_arg3))) (m ((c : Thread nD τ).loc main_arg4)) (m ((c : Thread nD τ).loc main_arg5))
    (m ((c : Thread nD τ).loc main_arg6)) (m ((c : Thread nD τ).loc main_arg7)) (m ((c : Thread nD τ).loc main_arg8))

/-- The output of all 8192 rows. -/
def outputOf : Mat 8192 768 := emit (stateOf m c) (m ((c : Thread nD τ).loc main_arg9)) (vec (m ((c : Thread nD τ).loc main_arg10)))

/-- The printed index maps over the 16 points: the six row windows' blocks follow the point. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The nine weight and bias windows' one block is the whole array at every point. -/
theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- The grid has 16 points. -/
theorem point_lt (t : Fin cfg0.N) : t.val < 16 := lt_of_lt_of_eq t.isLt N_0

/-- The array row that row p of point t's block is: 512 t + p. -/
def rowOf (t : Fin cfg0.N) (p : Fin 512) : Fin 8192 := ⟨t.val * 512 + p.val, by have := point_lt t; omega⟩

/-- Row p of point t's block of the inputs is row 512 t + p of the inputs, its unit axis dropped. -/
theorem rows0 (t : Fin cfg0.N) (p : Fin 512) :
    SameRow (R := 512) (M := 8192) (iblk m c 0 t) (flat (m ((c : Thread nD τ).loc main_arg0))) p (rowOf t p) := fun k => by
  obtain ⟨⟨e0, e1⟩, -⟩ := idx_rows t
  show V m c main_v7 (((cfg0.win 0).blk t).view.emb (ix2 p k)) = _
  rw [stage0]
  refine congrArg (flat (m ((c : Thread nD τ).loc main_arg0))) ?_
  funext a; apply Fin.ext
  match a with
  | ⟨0, _⟩ => show win0_0.index t (0 : Fin 2) * 512 + 1 * p.val = t.val * 512 + p.val; omega
  | ⟨1, _⟩ => show win0_0.index t (1 : Fin 2) * 512 + 1 * k.val = k.val; omega

/-- Row p of point t's block of the centre state is row 512 t + p of the centre state, its unit axis dropped. -/
theorem rows1 (t : Fin cfg0.N) (p : Fin 512) :
    SameRow (R := 512) (M := 8192) (iblk m c 1 t) (flat (m ((c : Thread nD τ).loc main_arg1))) p (rowOf t p) := fun k => by
  obtain ⟨e0, e1⟩ := (idx_rows t).2.1
  show V m c main_v8 (((cfg0.win 1).blk t).view.emb (ix2 p k)) = _
  rw [stage1]
  refine congrArg (flat (m ((c : Thread nD τ).loc main_arg1))) ?_
  funext a; apply Fin.ext
  match a with
  | ⟨0, _⟩ => show win0_1.index t (0 : Fin 2) * 512 + 1 * p.val = t.val * 512 + p.val; omega
  | ⟨1, _⟩ => show win0_1.index t (1 : Fin 2) * 512 + 1 * k.val = k.val; omega

/-- Row p of point t's block of the previous state is row 512 t + p of the previous state, its unit axis dropped. -/
theorem rows2 (t : Fin cfg0.N) (p : Fin 512) :
    SameRow (R := 512) (M := 8192) (iblk m c 2 t) (flat (m ((c : Thread nD τ).loc main_arg2))) p (rowOf t p) := fun k => by
  obtain ⟨e0, e1⟩ := (idx_rows t).2.2.1
  show V m c main_v9 (((cfg0.win 2).blk t).view.emb (ix2 p k)) = _
  rw [stage2]
  refine congrArg (flat (m ((c : Thread nD τ).loc main_arg2))) ?_
  funext a; apply Fin.ext
  match a with
  | ⟨0, _⟩ => show win0_2.index t (0 : Fin 2) * 512 + 1 * p.val = t.val * 512 + p.val; omega
  | ⟨1, _⟩ => show win0_2.index t (1 : Fin 2) * 1024 + 1 * k.val = k.val; omega

/-- Window 3's one block is its whole array. -/
theorem whole3 (t : Fin cfg0.N) : (iblk m c 3 t : S512x256.Idx → EReal) = clipped (m ((c : Thread nD τ).loc main_arg3)) := by
  obtain ⟨e0, e1⟩ := (idx_fixed t).1
  funext z
  show V m c main_v10 (((cfg0.win 3).blk t).view.emb z) = _
  rw [stage3]
  refine congrArg (clipped (m ((c : Thread nD τ).loc main_arg3))) ?_
  funext a; apply Fin.ext
  match a with
  | ⟨0, _⟩ => show win0_3.index t (0 : Fin 2) * 512 + 1 * (z 0).val = (z 0).val; omega
  | ⟨1, _⟩ => show win0_3.index t (1 : Fin 2) * 256 + 1 * (z 1).val = (z 1).val; omega

/-- Window 4's one block is its whole array. -/
theorem whole4 (t : Fin cfg0.N) : (iblk m c 4 t : S512x1024.Idx → EReal) = top (m ((c : Thread nD τ).loc main_arg4)) := by
  obtain ⟨e0, e1⟩ := (idx_fixed t).2.1
  funext z
  show V m c main_v12 (((cfg0.win 4).blk t).view.emb z) = _
  rw [stage4]
  refine congrArg (top (m ((c : Thread nD τ).loc main_arg4))) ?_
  funext a; apply Fin.ext
  match a with
  | ⟨0, _⟩ => show win0_4.index t (0 : Fin 2) * 512 + 1 * (z 0).val = (z 0).val; omega
  | ⟨1, _⟩ => show win0_4.index t (1 : Fin 2) * 1024 + 1 * (z 1).val = (z 1).val; omega

/-- Window 5's one block is its whole array. -/
theorem whole5 (t : Fin cfg0.N) : (iblk m c 5 t : S256x1024.Idx → EReal) = bottom (m ((c : Thread nD τ).loc main_arg4)) := by
  obtain ⟨e0, e1⟩ := (idx_fixed t).2.2.1
  funext z
  show V m c main_v14 (((cfg0.win 5).blk t).view.emb z) = _
  rw [stage5]
  refine congrArg (bottom (m ((c : Thread nD τ).loc main_arg4))) ?_
  funext a; apply Fin.ext
  match a with
  | ⟨0, _⟩ => show win0_5.index t (0 : Fin 2) * 256 + 1 * (z 0).val = (z 0).val; omega
  | ⟨1, _⟩ => show win0_5.index t (1 : Fin 2) * 1024 + 1 * (z 1).val = (z 1).val; omega

/-- Window 6's one block is the bias laid out as one row. -/
theorem bias6 (t : Fin cfg0.N) : row1 (iblk m c 6 t) = vec (m ((c : Thread nD τ).loc main_arg5)) := by
  obtain ⟨e0, e1⟩ := (idx_fixed t).2.2.2.1
  rw [← stage6 m c]
  funext q
  show V m c main_v18 (((cfg0.win 6).blk t).view.emb (ix2 (0 : Fin 1) q)) = V m c main_v18 (ix2 (0 : Fin 1) q)
  refine congrArg (V m c main_v18) ?_
  funext a; apply Fin.ext
  match a with
  | ⟨0, _⟩ => show win0_6.index t (0 : Fin 2) * 1 + 1 * 0 = 0; omega
  | ⟨1, _⟩ => show win0_6.index t (1 : Fin 2) * 1024 + 1 * q.val = q.val; omega

/-- Window 7's one block is its whole array. -/
theorem whole7 (t : Fin cfg0.N) : (iblk m c 7 t : S1024x1024.Idx → EReal) = (m ((c : Thread nD τ).loc main_arg6)) := by
  obtain ⟨e0, e1⟩ := (idx_fixed t).2.2.2.2.1
  funext z
  show V m c main_v15 (((cfg0.win 7).blk t).view.emb z) = _
  rw [stage7]
  refine congrArg ((m ((c : Thread nD τ).loc main_arg6))) ?_
  funext a; apply Fin.ext
  match a with
  | ⟨0, _⟩ => show win0_7.index t (0 : Fin 2) * 1024 + 1 * (z 0).val = (z 0).val; omega
  | ⟨1, _⟩ => show win0_7.index t (1 : Fin 2) * 1024 + 1 * (z 1).val = (z 1).val; omega

/-- Window 8's one block is its whole array. -/
theorem whole8 (t : Fin cfg0.N) : (iblk m c 8 t : S1024x1024.Idx → EReal) = (m ((c : Thread nD τ).loc main_arg7)) := by
  obtain ⟨e0, e1⟩ := (idx_fixed t).2.2.2.2.2.1
  funext z
  show V m c main_v16 (((cfg0.win 8).blk t).view.emb z) = _
  rw [stage8]
  refine congrArg ((m ((c : Thread nD τ).loc main_arg7))) ?_
  funext a; apply Fin.ext
  match a with
  | ⟨0, _⟩ => show win0_8.index t (0 : Fin 2) * 1024 + 1 * (z 0).val = (z 0).val; omega
  | ⟨1, _⟩ => show win0_8.index t (1 : Fin 2) * 1024 + 1 * (z 1).val = (z 1).val; omega

/-- Window 9's one block is the bias laid out as one row. -/
theorem bias9 (t : Fin cfg0.N) : row1 (iblk m c 9 t) = vec (m ((c : Thread nD τ).loc main_arg8)) := by
  obtain ⟨e0, e1⟩ := (idx_fixed t).2.2.2.2.2.2.1
  rw [← stage9 m c]
  funext q
  show V m c main_v19 (((cfg0.win 9).blk t).view.emb (ix2 (0 : Fin 1) q)) = V m c main_v19 (ix2 (0 : Fin 1) q)
  refine congrArg (V m c main_v19) ?_
  funext a; apply Fin.ext
  match a with
  | ⟨0, _⟩ => show win0_9.index t (0 : Fin 2) * 1 + 1 * 0 = 0; omega
  | ⟨1, _⟩ => show win0_9.index t (1 : Fin 2) * 1024 + 1 * q.val = q.val; omega

/-- Window 10's one block is its whole array. -/
theorem whole10 (t : Fin cfg0.N) : (iblk m c 10 t : S1024x768.Idx → EReal) = (m ((c : Thread nD τ).loc main_arg9)) := by
  obtain ⟨e0, e1⟩ := (idx_fixed t).2.2.2.2.2.2.2.1
  funext z
  show V m c main_v17 (((cfg0.win 10).blk t).view.emb z) = _
  rw [stage10]
  refine congrArg ((m ((c : Thread nD τ).loc main_arg9))) ?_
  funext a; apply Fin.ext
  match a with
  | ⟨0, _⟩ => show win0_10.index t (0 : Fin 2) * 1024 + 1 * (z 0).val = (z 0).val; omega
  | ⟨1, _⟩ => show win0_10.index t (1 : Fin 2) * 768 + 1 * (z 1).val = (z 1).val; omega

/-- Window 11's one block is the bias laid out as one row. -/
theorem bias11 (t : Fin cfg0.N) : row1 (iblk m c 11 t) = vec (m ((c : Thread nD τ).loc main_arg10)) := by
  obtain ⟨e0, e1⟩ := (idx_fixed t).2.2.2.2.2.2.2.2
  rw [← stage11 m c]
  funext q
  show V m c main_v20 (((cfg0.win 11).blk t).view.emb (ix2 (0 : Fin 1) q)) = V m c main_v20 (ix2 (0 : Fin 1) q)
  refine congrArg (V m c main_v20) ?_
  funext a; apply Fin.ext
  match a with
  | ⟨0, _⟩ => show win0_11.index t (0 : Fin 2) * 1 + 1 * 0 = 0; omega
  | ⟨1, _⟩ => show win0_11.index t (1 : Fin 2) * 768 + 1 * q.val = q.val; omega

/-- The state of point t's block of rows is the same rows of the state of all rows. -/
theorem state_rows (t : Fin cfg0.N) (p : Fin 512) :
    SameRow (R := 512) (M := 8192)
      (state (M := 512) (iblk m c 0 t) (iblk m c 1 t) (iblk m c 2 t) (iblk m c 3 t) (iblk m c 4 t) (iblk m c 5 t)
        (row1 (iblk m c 6 t)) (iblk m c 7 t) (iblk m c 8 t) (row1 (iblk m c 9 t)))
      (stateOf m c) p (rowOf t p) := by
  rw [whole3 m c t, whole4 m c t, whole5 m c t, bias6 m c t, whole7 m c t, whole8 m c t, bias9 m c t]
  exact sameRow_state (rows0 m c t p) (rows1 m c t p) (rows2 m c t p) _ _ _ _ _ _ _

/-! ## The new state: window 14 -/

/-- WHAT POINT t WRITES BACK to the state array: rows 512 t … of the state of all rows. -/
theorem flushed14 (t : Fin cfg0.N) :
    (dats m 0 c).flushed 14 t = ((cfg0.win 14).blk t).view.read (Elt Ideal) (stateOf m c) := by
  show (cfg0.win 14).cut (grid0.coords t) ((dats m 0 c).after 14 t) = _
  rw [after0_14]
  unfold out0_14
  rw [View.canon_unit_zero hz]
  simp only [View.ld_unit_zero (S := S512x512) hz, View.ld_unit_zero (S := S512x1024) hz, View.ld_unit_zero (S := S512x256) hz,
    View.ld_unit_zero (S := S256x1024) hz, View.ld_unit_zero (S := S1x1024) hz, View.ld_unit_zero (S := S1024x1024) hz,
    View.ld_unit_zero (S := S1024x768) hz, View.ld_unit_zero (S := S1x768) hz]
  obtain ⟨e0, e1⟩ := (idx_rows t).2.2.2.2.2
  funext y
  obtain ⟨p, q, rfl⟩ : ∃ (p : Fin 512) (q : Fin 1024), y = ix2 p q := ⟨y 0, y 1, eq_ix2 y⟩
  show k0_pay1 (F := Ideal) (k0_pay5 (iblk m c 0 t) (iblk m c 1 t) (iblk m c 2 t) (iblk m c 3 t) (iblk m c 4 t) (iblk m c 5 t)
      (iblk m c 6 t) (iblk m c 7 t) (iblk m c 8 t)) (iblk m c 9 t) (ix2 p q)
    = stateOf m c (((cfg0.win 14).blk t).view.emb (ix2 p q))
  have hemb : ((cfg0.win 14).blk t).view.emb (ix2 p q) = ix2 (rowOf t p) q := by
    funext a; apply Fin.ext
    match a with
    | ⟨0, _⟩ => show win0_14.index t (0 : Fin 2) * 512 + 1 * p.val = t.val * 512 + p.val; omega
    | ⟨1, _⟩ => show win0_14.index t (1 : Fin 2) * 1024 + 1 * q.val = q.val; omega
  rw [hemb]
  refine (congrFun (pay_state _ _ _ _ _ _ _ _ _ _) (ix2 p q)).trans ?_
  exact state_rows m c t p q

/-- An index of the state array is in point t's block iff each coordinate is in the block's range. -/
theorem mem_blk14 (t : Fin cfg0.N) (i : S8192x1024.Idx) :
    i ∈ ((cfg0.win 14).blk t).view.set ↔ ∀ a : Fin 2, win0_14.index t a * S512x1024.size a ≤ (i a).val
      ∧ (i a).val < win0_14.index t a * S512x1024.size a + S512x1024.size a := by
  show i ∈ ((View.whole main_v21_2).slice (win0_14.rect t)).set ↔ _
  rw [View.set_slice_whole, Rect.mem_set_unit]
  exact Iff.rfl

/-- Row r lies in the block of point r / 512: the 16 blocks tile the array. -/
theorem cover14 (i : S8192x1024.Idx) :
    ∃ t : Fin cfg0.N, (cfg0.win 14).flush t = true ∧ i ∈ ((cfg0.win 14).blk t).view.set := by
  have hi0 : (i 0).val < 8192 := (i 0).isLt
  have hi1 : (i 1).val < 1024 := (i 1).isLt
  have hN : (i 0).val / 512 < cfg0.N := by rw [show cfg0.N = 16 from N_0]; omega
  obtain ⟨e0, e1⟩ := (idx_rows ⟨(i 0).val / 512, hN⟩).2.2.2.2.2
  refine ⟨⟨(i 0).val / 512, hN⟩, flush0_14 _, ?_⟩
  rw [mem_blk14]
  intro a
  match a with
  | ⟨0, _⟩ =>
    show win0_14.index ⟨(i 0).val / 512, hN⟩ (0 : Fin 2) * 512 ≤ (i 0).val
      ∧ (i 0).val < win0_14.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_14.index ⟨(i 0).val / 512, hN⟩ (1 : Fin 2) * 1024 ≤ (i 1).val
      ∧ (i 1).val < win0_14.index ⟨(i 0).val / 512, hN⟩ (1 : Fin 2) * 1024 + 1024
    rw [e1]; omega

/-- THE STATE ARRAY after the run. -/
theorem final14 : ((dats m 0 c).arrAt 14 cfg0.N : S8192x1024.Idx → EReal) = stateOf m c :=
  (dats m 0 c).arrAt_eq_of_cover 14 (stateOf m c) (fun t _ => flushed14 m c t) (cover14)

/-- The output of point t's block of rows is the same rows of the output of all rows. -/
theorem out_rows (t : Fin cfg0.N) (p : Fin 512) :
    SameRow (R := 512) (M := 8192)
      (emit (M := 512) (state (M := 512) (iblk m c 0 t) (iblk m c 1 t) (iblk m c 2 t) (iblk m c 3 t) (iblk m c 4 t) (iblk m c 5 t)
        (row1 (iblk m c 6 t)) (iblk m c 7 t) (iblk m c 8 t) (row1 (iblk m c 9 t))) (iblk m c 10 t) (row1 (iblk m c 11 t)))
      (outputOf m c) p (rowOf t p) := by
  rw [whole10 m c t, bias11 m c t]
  exact sameRow_emit (state_rows m c t p) _ _

/-! ## The output's columns 0…511: window 12 -/

/-- The output's columns 0…511, of all 8192 rows. -/
def leftOf : S8192x512.Idx → EReal := fun i => outputOf m c (ix2 (i 0 : Fin 8192) (Fin.castAdd 256 (i 1 : Fin 512) : Fin 768))

/-- WHAT POINT t WRITES BACK to this array: rows 512 t … of it. -/
theorem flushed12 (t : Fin cfg0.N) :
    (dats m 0 c).flushed 12 t = ((cfg0.win 12).blk t).view.read (Elt Ideal) (leftOf m c) := by
  show (cfg0.win 12).cut (grid0.coords t) ((dats m 0 c).after 12 t) = _
  rw [after0_12]
  unfold out0_12
  rw [View.canon_unit_zero hz]
  simp only [View.ld_unit_zero (S := S512x512) hz, View.ld_unit_zero (S := S512x1024) hz, View.ld_unit_zero (S := S512x256) hz,
    View.ld_unit_zero (S := S256x1024) hz, View.ld_unit_zero (S := S1x1024) hz, View.ld_unit_zero (S := S1024x1024) hz,
    View.ld_unit_zero (S := S1024x768) hz, View.ld_unit_zero (S := S1x768) hz]
  obtain ⟨e0, e1⟩ := (idx_rows t).2.2.2.1
  funext y
  obtain ⟨p, q, rfl⟩ : ∃ (p : Fin 512) (q : Fin 512), y = ix2 p q := ⟨y 0, y 1, eq_ix2 y⟩
  show k0_pay3 (F := Ideal) (k0_pay5 (iblk m c 0 t) (iblk m c 1 t) (iblk m c 2 t) (iblk m c 3 t) (iblk m c 4 t) (iblk m c 5 t)
      (iblk m c 6 t) (iblk m c 7 t) (iblk m c 8 t)) (iblk m c 9 t) (iblk m c 10 t) (iblk m c 11 t) (ix2 p q)
    = leftOf m c (((cfg0.win 12).blk t).view.emb (ix2 p q))
  have hemb : ((cfg0.win 12).blk t).view.emb (ix2 p q) = ix2 (rowOf t p) q := by
    funext a; apply Fin.ext
    match a with
    | ⟨0, _⟩ => show win0_12.index t (0 : Fin 2) * 512 + 1 * p.val = t.val * 512 + p.val; omega
    | ⟨1, _⟩ => show win0_12.index t (1 : Fin 2) * 512 + 1 * q.val = q.val; omega
  rw [hemb]
  refine (pay_left _ _ _ _ (ix2 p q)).trans ?_
  refine (congrFun (out_cell _ _ _ _ _ _ _ _ _ _ _ _) _).trans ?_
  exact out_rows m c t p (Fin.castAdd 256 q)

/-- An index of this array is in point t's block iff each coordinate is in the block's range. -/
theorem mem_blk12 (t : Fin cfg0.N) (i : S8192x512.Idx) :
    i ∈ ((cfg0.win 12).blk t).view.set ↔ ∀ a : Fin 2, win0_12.index t a * S512x512.size a ≤ (i a).val
      ∧ (i a).val < win0_12.index t a * S512x512.size a + S512x512.size a := by
  show i ∈ ((View.whole main_v21_0).slice (win0_12.rect t)).set ↔ _
  rw [View.set_slice_whole, Rect.mem_set_unit]
  exact Iff.rfl

/-- Row r lies in the block of point r / 512: the 16 blocks tile the array. -/
theorem cover12 (i : S8192x512.Idx) :
    ∃ t : Fin cfg0.N, (cfg0.win 12).flush t = true ∧ i ∈ ((cfg0.win 12).blk t).view.set := by
  have hi0 : (i 0).val < 8192 := (i 0).isLt
  have hi1 : (i 1).val < 512 := (i 1).isLt
  have hN : (i 0).val / 512 < cfg0.N := by rw [show cfg0.N = 16 from N_0]; omega
  obtain ⟨e0, e1⟩ := (idx_rows ⟨(i 0).val / 512, hN⟩).2.2.2.1
  refine ⟨⟨(i 0).val / 512, hN⟩, flush0_12 _, ?_⟩
  rw [mem_blk12]
  intro a
  match a with
  | ⟨0, _⟩ =>
    show win0_12.index ⟨(i 0).val / 512, hN⟩ (0 : Fin 2) * 512 ≤ (i 0).val
      ∧ (i 0).val < win0_12.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_12.index ⟨(i 0).val / 512, hN⟩ (1 : Fin 2) * 512 ≤ (i 1).val
      ∧ (i 1).val < win0_12.index ⟨(i 0).val / 512, hN⟩ (1 : Fin 2) * 512 + 512
    rw [e1]; omega

/-- THIS ARRAY after the run. -/
theorem final12 : ((dats m 0 c).arrAt 12 cfg0.N : S8192x512.Idx → EReal) = leftOf m c :=
  (dats m 0 c).arrAt_eq_of_cover 12 (leftOf m c) (fun t _ => flushed12 m c t) (cover12)

/-! ## The output's columns 512…767: window 13 -/

/-- The output's columns 512…767, of all 8192 rows. -/
def rightOf : S8192x256.Idx → EReal := fun i => outputOf m c (ix2 (i 0 : Fin 8192) (Fin.natAdd 512 (i 1 : Fin 256) : Fin 768))

/-- WHAT POINT t WRITES BACK to this array: rows 512 t … of it. -/
theorem flushed13 (t : Fin cfg0.N) :
    (dats m 0 c).flushed 13 t = ((cfg0.win 13).blk t).view.read (Elt Ideal) (rightOf m c) := by
  show (cfg0.win 13).cut (grid0.coords t) ((dats m 0 c).after 13 t) = _
  rw [after0_13]
  unfold out0_13
  rw [View.canon_unit_zero hz]
  simp only [View.ld_unit_zero (S := S512x512) hz, View.ld_unit_zero (S := S512x1024) hz, View.ld_unit_zero (S := S512x256) hz,
    View.ld_unit_zero (S := S256x1024) hz, View.ld_unit_zero (S := S1x1024) hz, View.ld_unit_zero (S := S1024x1024) hz,
    View.ld_unit_zero (S := S1024x768) hz, View.ld_unit_zero (S := S1x768) hz]
  obtain ⟨e0, e1⟩ := (idx_rows t).2.2.2.2.1
  funext y
  obtain ⟨p, q, rfl⟩ : ∃ (p : Fin 512) (q : Fin 256), y = ix2 p q := ⟨y 0, y 1, eq_ix2 y⟩
  show k0_pay4 (F := Ideal) (k0_pay5 (iblk m c 0 t) (iblk m c 1 t) (iblk m c 2 t) (iblk m c 3 t) (iblk m c 4 t) (iblk m c 5 t)
      (iblk m c 6 t) (iblk m c 7 t) (iblk m c 8 t)) (iblk m c 9 t) (iblk m c 10 t) (iblk m c 11 t) (ix2 p q)
    = rightOf m c (((cfg0.win 13).blk t).view.emb (ix2 p q))
  have hemb : ((cfg0.win 13).blk t).view.emb (ix2 p q) = ix2 (rowOf t p) q := by
    funext a; apply Fin.ext
    match a with
    | ⟨0, _⟩ => show win0_13.index t (0 : Fin 2) * 512 + 1 * p.val = t.val * 512 + p.val; omega
    | ⟨1, _⟩ => show win0_13.index t (1 : Fin 2) * 256 + 1 * q.val = q.val; omega
  rw [hemb]
  refine (pay_right _ _ _ _ (ix2 p q)).trans ?_
  refine (congrFun (out_cell _ _ _ _ _ _ _ _ _ _ _ _) _).trans ?_
  exact out_rows m c t p (Fin.natAdd 512 q)

/-- An index of this array is in point t's block iff each coordinate is in the block's range. -/
theorem mem_blk13 (t : Fin cfg0.N) (i : S8192x256.Idx) :
    i ∈ ((cfg0.win 13).blk t).view.set ↔ ∀ a : Fin 2, win0_13.index t a * S512x256.size a ≤ (i a).val
      ∧ (i a).val < win0_13.index t a * S512x256.size a + S512x256.size a := by
  show i ∈ ((View.whole main_v21_1).slice (win0_13.rect t)).set ↔ _
  rw [View.set_slice_whole, Rect.mem_set_unit]
  exact Iff.rfl

/-- Row r lies in the block of point r / 512: the 16 blocks tile the array. -/
theorem cover13 (i : S8192x256.Idx) :
    ∃ t : Fin cfg0.N, (cfg0.win 13).flush t = true ∧ i ∈ ((cfg0.win 13).blk t).view.set := by
  have hi0 : (i 0).val < 8192 := (i 0).isLt
  have hi1 : (i 1).val < 256 := (i 1).isLt
  have hN : (i 0).val / 512 < cfg0.N := by rw [show cfg0.N = 16 from N_0]; omega
  obtain ⟨e0, e1⟩ := (idx_rows ⟨(i 0).val / 512, hN⟩).2.2.2.2.1
  refine ⟨⟨(i 0).val / 512, hN⟩, flush0_13 _, ?_⟩
  rw [mem_blk13]
  intro a
  match a with
  | ⟨0, _⟩ =>
    show win0_13.index ⟨(i 0).val / 512, hN⟩ (0 : Fin 2) * 512 ≤ (i 0).val
      ∧ (i 0).val < win0_13.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_13.index ⟨(i 0).val / 512, hN⟩ (1 : Fin 2) * 256 ≤ (i 1).val
      ∧ (i 1).val < win0_13.index ⟨(i 0).val / 512, hN⟩ (1 : Fin 2) * 256 + 256
    rw [e1]; omega

/-- THIS ARRAY after the run. -/
theorem final13 : ((dats m 0 c).arrAt 13 cfg0.N : S8192x256.Idx → EReal) = rightOf m c :=
  (dats m 0 c).arrAt_eq_of_cover 13 (rightOf m c) (fun t _ => flushed13 m c t) (cover13)

end Cert.KernelIdeal.Blocks

end
-- ==== Proof.Tail.lean ====
/-
  The host operations that follow the kernel: three reshapes.

  After the kernel, the program reshapes each of its three result arrays from [8192, n] to [8192, 1, n]
  (n = 512, 256, 1024). A reshape keeps every entry at its row-major position. The position of (r, z, q) in
  [8192, 1, n] is (r · 1 + z) · n + q, and z < 1, so it is r · n + q: the position of (r, q) in [8192, n]. Hence
  the reshaped array at (r, z, q) is the kernel's array at (r, q). Each reshape writes a buffer of its own and reads
  one the other two do not write, so each result is read off the kernel's array directly.
-/
import proofs.«164933_j38611755991897_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Tail

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

/-- The first result: the [8192, 1, 512] result at (r, z, q) is the kernel's [8192, 512] array at (r, q). -/
theorem tail_v22 : (Pipeline.afterTail₀ cfgs (dats m) 0 (V0 m) [hostOps1] c main_v22 : S8192x1x512.Idx → EReal)
    = fun i => ((dats m 0 c).arrAt 12 cfg0.N : S8192x512.Idx → EReal) (ix2 (i 0 : Fin 8192) (i 2 : Fin 512)) := by
  unfold Pipeline.afterTail₀
  simp only [List.flatten_cons, List.flatten_nil, List.append_nil]
  show StableHlo.after hostOps1 _ (Proc.devRef .tc main_v22) = _
  after_results
  funext i
  -- the reshaped operand is the kernel's result array number 12, as the kernel leaves it
  show shapeCast S8192x1x512 (Pipeline.withArrays spec0 c (V0 m c) (fun w => (dats m 0 c).arrAt w cfg0.N)
      (Proc.devRef .tc (Pipeline.arrRef spec0 12))) shapeCasts_S8192x512_S8192x1x512 i = _
  rw [Pipeline.withArrays_arr spec0 launch0.win.arr_inj c (V0 m c) _ 12]
  -- (r, z, q) and (r, q) have the same row-major position, (r · 1 + z) · 512 + q = r · 512 + q, because z < 1
  exact shapeCast_apply (s := S8192x512) (t := S8192x1x512) _ _ i (ix2 (i 0 : Fin 8192) (i 2 : Fin 512)) (by
    rw [Shape.rowMajor_val_two, Shape.rowMajor_val_three]
    have h1 : (i 1).val < 1 := (i 1).isLt
    show (i 0).val * 512 + (i 2).val = ((i 0).val * 1 + (i 1).val) * 512 + (i 2).val
    omega)

/-- The second result: the [8192, 1, 256] result at (r, z, q) is the kernel's [8192, 256] array at (r, q). -/
theorem tail_v23 : (Pipeline.afterTail₀ cfgs (dats m) 0 (V0 m) [hostOps1] c main_v23 : S8192x1x256.Idx → EReal)
    = fun i => ((dats m 0 c).arrAt 13 cfg0.N : S8192x256.Idx → EReal) (ix2 (i 0 : Fin 8192) (i 2 : Fin 256)) := by
  unfold Pipeline.afterTail₀
  simp only [List.flatten_cons, List.flatten_nil, List.append_nil]
  show StableHlo.after hostOps1 _ (Proc.devRef .tc main_v23) = _
  after_results
  funext i
  -- the reshaped operand is the kernel's result array number 13, as the kernel leaves it
  show shapeCast S8192x1x256 (Pipeline.withArrays spec0 c (V0 m c) (fun w => (dats m 0 c).arrAt w cfg0.N)
      (Proc.devRef .tc (Pipeline.arrRef spec0 13))) shapeCasts_S8192x256_S8192x1x256 i = _
  rw [Pipeline.withArrays_arr spec0 launch0.win.arr_inj c (V0 m c) _ 13]
  -- (r, z, q) and (r, q) have the same row-major position, (r · 1 + z) · 256 + q = r · 256 + q, because z < 1
  exact shapeCast_apply (s := S8192x256) (t := S8192x1x256) _ _ i (ix2 (i 0 : Fin 8192) (i 2 : Fin 256)) (by
    rw [Shape.rowMajor_val_two, Shape.rowMajor_val_three]
    have h1 : (i 1).val < 1 := (i 1).isLt
    show (i 0).val * 256 + (i 2).val = ((i 0).val * 1 + (i 1).val) * 256 + (i 2).val
    omega)

/-- The third result: the [8192, 1, 1024] result at (r, z, q) is the kernel's [8192, 1024] array at (r, q). -/
theorem tail_v24 : (Pipeline.afterTail₀ cfgs (dats m) 0 (V0 m) [hostOps1] c main_v24 : S8192x1x1024.Idx → EReal)
    = fun i => ((dats m 0 c).arrAt 14 cfg0.N : S8192x1024.Idx → EReal) (ix2 (i 0 : Fin 8192) (i 2 : Fin 1024)) := by
  unfold Pipeline.afterTail₀
  simp only [List.flatten_cons, List.flatten_nil, List.append_nil]
  show StableHlo.after hostOps1 _ (Proc.devRef .tc main_v24) = _
  after_results
  funext i
  -- the reshaped operand is the kernel's result array number 14, as the kernel leaves it
  show shapeCast S8192x1x1024 (Pipeline.withArrays spec0 c (V0 m c) (fun w => (dats m 0 c).arrAt w cfg0.N)
      (Proc.devRef .tc (Pipeline.arrRef spec0 14))) shapeCasts_S8192x1024_S8192x1x1024 i = _
  rw [Pipeline.withArrays_arr spec0 launch0.win.arr_inj c (V0 m c) _ 14]
  -- (r, z, q) and (r, q) have the same row-major position, (r · 1 + z) · 1024 + q = r · 1024 + q, because z < 1
  exact shapeCast_apply (s := S8192x1024) (t := S8192x1x1024) _ _ i (ix2 (i 0 : Fin 8192) (i 2 : Fin 1024)) (by
    rw [Shape.rowMajor_val_two, Shape.rowMajor_val_three]
    have h1 : (i 1).val < 1 := (i 1).isLt
    show (i 0).val * 1024 + (i 2).val = ((i 0).val * 1 + (i 1).val) * 1024 + (i 2).val
    omega)

end Cert.KernelIdeal.Tail

end
-- ==== Proof.KernelRun.lean ====
/-
  The kernel program's run, read back: every weakly fair execution terminates with the three results at the cell's
  whole-array functions of the arguments (Whole.lean), and the arguments unchanged.

  The frame run leaves each of the kernel's three result arrays at what its 16 blocks wrote (Blocks.lean); the
  program then puts the unit middle axis back (Tail.lean): result (r, 0, q) is the array's entry (r, q).
-/
import proofs.«164933_j38611755991897_2_alg».proof.Proof.Blocks
import proofs.«164933_j38611755991897_2_alg».proof.Proof.Tail

noncomputable section

namespace Cert.KernelIdeal.Run

open Cert.KernelIdeal Cert.KernelIdeal.Gen Idealize.ShloMosaic Idealize.ShloMosaic.TcCoe Idealize.SL.Sem
open Idealize.ShloMosaic.ValueIdx
open Cert.Dense Cert.Cell Cert.Whole Cert.KernelIdeal.Entry Cert.KernelIdeal.Blocks Cert.KernelIdeal.Tail

variable (m : (ℓ : Loc nD τ sig) → Buf (Elt Ideal) ℓ) (ρ : Dev nD → PrngReg)

/-- Result 0 on device c: the output's columns 0…511 of every row. -/
def res0 (c : Dev nD) : Cube 8192 1 512 := result0 (m ((c : Thread nD τ).loc main_arg0)) (m ((c : Thread nD τ).loc main_arg1)) (m ((c : Thread nD τ).loc main_arg2)) (clipped (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Result 1 on device c: the output's columns 512…767 of every row. -/
def res1 (c : Dev nD) : Cube 8192 1 256 := result1 (m ((c : Thread nD τ).loc main_arg0)) (m ((c : Thread nD τ).loc main_arg1)) (m ((c : Thread nD τ).loc main_arg2)) (clipped (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- Result 2 on device c: the new state of every row. -/
def res2 (c : Dev nD) : Cube 8192 1 1024 := result2 (m ((c : Thread nD τ).loc main_arg0)) (m ((c : Thread nD τ).loc main_arg1)) (m ((c : Thread nD τ).loc main_arg2)) (clipped (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8))

/-- Result 0 after the run: the first output array with its unit axis put back. -/
theorem tail0 (c : Dev nD) : Pipeline.afterTail₀ cfgs (dats m) 0 (V0 m) [hostOps1] c main_v22 = res0 m c := by
  refine (tail_v22 m c).trans ?_
  rw [final12]
  rfl

/-- Result 1 after the run: the second output array with its unit axis put back. -/
theorem tail1 (c : Dev nD) : Pipeline.afterTail₀ cfgs (dats m) 0 (V0 m) [hostOps1] c main_v23 = res1 m c := by
  refine (tail_v23 m c).trans ?_
  rw [final13]
  rfl

/-- Result 2 after the run: the state array with its unit axis put back. -/
theorem tail2 (c : Dev nD) : Pipeline.afterTail₀ cfgs (dats m) 0 (V0 m) [hostOps1] c main_v24 = res2 m c := by
  refine (tail_v24 m c).trans ?_
  rw [final14]
  rfl

/-- The run: the three results at the cell of the arguments, the arguments unchanged. -/
theorem run : θ_run defs (onTc (τ := τ) (main (F := Ideal))) ⟨m, fun _ => 0, ρ⟩ (fun r => ∀ c : Dev nD,
      r.2.mem ((c.tc : Thread nD τ).loc main_v22) = res0 m c
      ∧ r.2.mem ((c.tc : Thread nD τ).loc main_v23) = res1 m c
      ∧ r.2.mem ((c.tc : Thread nD τ).loc main_v24) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      ((h c).2 main_v22 (Pipeline.mem_restRefs_of main_v22 (by decide) (by decide))).trans (tail0 m c),
      ((h c).2 main_v23 (Pipeline.mem_restRefs_of main_v23 (by decide) (by decide))).trans (tail1 m c),
      ((h c).2 main_v24 (Pipeline.mem_restRefs_of main_v24 (by decide) (by decide))).trans (tail2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Run

end
-- ==== Proof.RefValue.lean ====
/-
  The reference program's three results, read entry by entry, are the recurrent cell of `Whole.lean`.

  The reference works on [8192, 1, n] arrays. Row r of such an array is the entries (r, 0, ·). Each of its contractions
  is, at (r, 0, q), the sum over k of the left operand at (r, 0, k) times the right operand at (k, q): the product of
  the flattened left operand with the weights. The layer's input is the concatenation, along the last axis, of the
  inputs (512 entries) and the context (256 entries); the contraction of those 768 entries against the input weights is
  the sum over the first 512 plus the sum over the last 256, which is the inputs times the weights' first 512 rows plus
  the context times their last 256 rows. The biases are broadcast along the rows, the rectifier is the maximum with the
  zero word, and the two output results are the columns 0…511 and 512…767 of the output.

  The clipped reading weights are never opened: they are the same array on both sides of every equation.
  No finiteness is needed: both sides are the same sums of the same products in the same order.
-/
import proofs.«164933_j38611755991897_2_alg».proof.Proof.Gen.ReferenceIdeal.Read
import proofs.«164933_j38611755991897_2_alg».proof.Proof.Whole
import Idealize.ShloMosaic.Lib.Pipeline.Value
import Idealize.ShloMosaic.Lib.ValueIdx

noncomputable section

namespace Cert.ReferenceIdeal.RefValue

open Idealize.ShloMosaic Idealize.ShloMosaic.ValueIdx Cert.Dense Cert.Cell Cert.Whole Cert.ReferenceIdeal
  Cert.ReferenceIdeal.Gen

variable (x0 x1 : Cube 8192 1 512) (x2 : Cube 8192 1 1024) (x3 : Mat 512 256) (x4 : Mat 768 1024) (x5 : Line 1024)
  (x6 x7 : Mat 1024 1024) (x8 : Line 1024) (x9 : Mat 1024 768) (x10 : Line 768)

/-- The context at (r, 0, d): the centre state's row r times column d of the clipped reading weights. -/
theorem context_at (r : Fin 8192) (d : Fin 256) :
    Read.val_main_v7 (F := Ideal) x1 x3 (ix3 r (0 : Fin 1) d)
      = rowsTimes (flat x1) (Read.val_main_v6 (F := Ideal) x3) (ix2 r d) := by
  rw [Read.val_main_v7_apply]
  refine Finset.sum_congr rfl fun k _ => ?_
  have el : Read.lidx_main_v7 (ix3 r (0 : Fin 1) d) k = ix3 r (0 : Fin 1) k :=
    funext fun a => by match a with | ⟨0, _⟩ => rfl | ⟨1, _⟩ => rfl | ⟨2, _⟩ => rfl
  have er : Read.ridx_main_v7 (ix3 r (0 : Fin 1) d) k = ix2 k d :=
    funext fun a => by match a with | ⟨0, _⟩ => rfl | ⟨1, _⟩ => rfl
  rw [el, er]
  rfl

/-- The layer's input at (r, 0, k) for k among the first 512 entries: the inputs at (r, 0, k). -/
theorem joined_left (r : Fin 8192) (k : Fin 512) :
    Read.val_main_v8 (F := Ideal) x0 x1 x3 (ix3 r (0 : Fin 1) (Fin.castAdd 256 k)) = x0 (ix3 r (0 : Fin 1) k) := by
  unfold Read.val_main_v8
  exact concatenate_pair_apply_left _ x0 _ concatenates_S8192x1x512_S8192x1x256_S8192x1x768_d2 _ rfl
    (ix3 r (0 : Fin 1) k) (fun b => by match b with | ⟨0, _⟩ => rfl | ⟨1, _⟩ => rfl | ⟨2, _⟩ => rfl)

/-- The layer's input at (r, 0, 512 + d): the context at (r, 0, d). -/
theorem joined_right (r : Fin 8192) (d : Fin 256) :
    Read.val_main_v8 (F := Ideal) x0 x1 x3 (ix3 r (0 : Fin 1) (Fin.natAdd 512 d))
      = Read.val_main_v7 (F := Ideal) x1 x3 (ix3 r (0 : Fin 1) d) := by
  unfold Read.val_main_v8
  exact concatenate_pair_apply_right _ x0 _ concatenates_S8192x1x512_S8192x1x256_S8192x1x768_d2 _ rfl rfl
    (ix3 r (0 : Fin 1) d)
    (fun b hb => by
      match b, hb with
      | ⟨0, _⟩, _ => rfl
      | ⟨1, _⟩, _ => rfl
      | ⟨2, _⟩, hb => exact absurd rfl hb)
    (by show d.val + 512 = 512 + d.val; omega)

/-- The bias of the rectified layer, broadcast along the rows, at (r, 0, g): entry g of the bias. -/
theorem bias_pre_at (r : Fin 8192) (g : Fin 1024) :
    Read.val_main_v11 (F := Ideal) x5 (ix3 r (0 : Fin 1) g) = vec x5 g := by
  rw [Read.val_main_v11_apply, Read.val_main_v10_apply]
  exact congrArg x5 (funext fun a => by match a with | ⟨0, _⟩ => rfl)

/-- The contraction of the layer's input against the input weights at (r, 0, g): the inputs' row r times column g of
    the weights' first 512 rows, plus the context's row r times column g of their last 256 rows. -/
theorem layer_sum_at (r : Fin 8192) (g : Fin 1024) :
    Read.val_main_v9 (F := Ideal) x0 x1 x3 x4 (ix3 r (0 : Fin 1) g)
      = rowsTimes (flat x0) (top x4) (ix2 r g)
        + rowsTimes (rowsTimes (flat x1) (Read.val_main_v6 (F := Ideal) x3)) (bottom x4) (ix2 r g) := by
  rw [Read.val_main_v9_apply, sum_split]
  refine congrArg₂ (· + ·) (Finset.sum_congr rfl fun k _ => ?_) (Finset.sum_congr rfl fun d _ => ?_)
  · have el : Read.lidx_main_v9 (ix3 r (0 : Fin 1) g) (Fin.castAdd 256 k) = ix3 r (0 : Fin 1) (Fin.castAdd 256 k) :=
      funext fun a => by match a with | ⟨0, _⟩ => rfl | ⟨1, _⟩ => rfl | ⟨2, _⟩ => rfl
    have er : Read.ridx_main_v9 (ix3 r (0 : Fin 1) g) (Fin.castAdd 256 k) = ix2 (Fin.castAdd 256 k : Fin 768) g :=
      funext fun a => by match a with | ⟨0, _⟩ => rfl | ⟨1, _⟩ => rfl
    rw [el, er, joined_left]
    rfl
  · have el : Read.lidx_main_v9 (ix3 r (0 : Fin 1) g) (Fin.natAdd 512 d) = ix3 r (0 : Fin 1) (Fin.natAdd 512 d) :=
      funext fun a => by match a with | ⟨0, _⟩ => rfl | ⟨1, _⟩ => rfl | ⟨2, _⟩ => rfl
    have er : Read.ridx_main_v9 (ix3 r (0 : Fin 1) g) (Fin.natAdd 512 d) = ix2 (Fin.natAdd 512 d : Fin 768) g :=
      funext fun a => by match a with | ⟨0, _⟩ => rfl | ⟨1, _⟩ => rfl
    rw [el, er, joined_right, context_at]
    rfl

/-- The rectified layer at (r, 0, g). -/
theorem layer_at (r : Fin 8192) (g : Fin 1024) :
    Read.val_main_v13 (F := Ideal) x0 x1 x3 x4 x5 (ix3 r (0 : Fin 1) g)
      = feed (flat x0) (rowsTimes (flat x1) (Read.val_main_v6 (F := Ideal) x3)) (top x4) (bottom x4) (vec x5)
          (ix2 r g) := by
  rw [Read.val_main_v13_apply, Read.val_main_call0_v0_apply, Read.val_main_call0_cst_apply, Read.val_main_v12_apply,
    layer_sum_at, bias_pre_at]
  rfl

/-- The bias of the recurrent layer, broadcast along the rows, at (r, 0, j): entry j of the bias. -/
theorem bias_rnn_at (r : Fin 8192) (j : Fin 1024) :
    Read.val_main_v18 (F := Ideal) x8 (ix3 r (0 : Fin 1) j) = vec x8 j := by
  rw [Read.val_main_v18_apply, Read.val_main_v17_apply]
  exact congrArg x8 (funext fun a => by match a with | ⟨0, _⟩ => rfl)

/-- The rectified layer times the recurrent input weights, at (r, 0, j). -/
theorem layer_times_at (r : Fin 8192) (j : Fin 1024) :
    Read.val_main_v14 (F := Ideal) x0 x1 x3 x4 x5 x6 (ix3 r (0 : Fin 1) j)
      = rowsTimes (feed (flat x0) (rowsTimes (flat x1) (Read.val_main_v6 (F := Ideal) x3)) (top x4) (bottom x4) (vec x5))
          x6 (ix2 r j) := by
  rw [Read.val_main_v14_apply]
  refine Finset.sum_congr rfl fun k _ => ?_
  have el : Read.lidx_main_v14 (ix3 r (0 : Fin 1) j) k = ix3 r (0 : Fin 1) k :=
    funext fun a => by match a with | ⟨0, _⟩ => rfl | ⟨1, _⟩ => rfl | ⟨2, _⟩ => rfl
  have er : Read.ridx_main_v14 (ix3 r (0 : Fin 1) j) k = ix2 k j :=
    funext fun a => by match a with | ⟨0, _⟩ => rfl | ⟨1, _⟩ => rfl
  rw [el, er, layer_at]

/-- The previous state times the recurrent state weights, at (r, 0, j). -/
theorem state_times_at (r : Fin 8192) (j : Fin 1024) :
    Read.val_main_v15 (F := Ideal) x2 x7 (ix3 r (0 : Fin 1) j) = rowsTimes (flat x2) x7 (ix2 r j) := by
  rw [Read.val_main_v15_apply]
  refine Finset.sum_congr rfl fun k _ => ?_
  have el : Read.lidx_main_v15 (ix3 r (0 : Fin 1) j) k = ix3 r (0 : Fin 1) k :=
    funext fun a => by match a with | ⟨0, _⟩ => rfl | ⟨1, _⟩ => rfl | ⟨2, _⟩ => rfl
  have er : Read.ridx_main_v15 (ix3 r (0 : Fin 1) j) k = ix2 k j :=
    funext fun a => by match a with | ⟨0, _⟩ => rfl | ⟨1, _⟩ => rfl
  rw [el, er]
  rfl

/-- The new state at (r, 0, j). -/
theorem newState_at (r : Fin 8192) (j : Fin 1024) :
    Read.val_main_v20 (F := Ideal) x0 x1 x2 x3 x4 x5 x6 x7 x8 (ix3 r (0 : Fin 1) j)
      = newState x0 x1 x2 (Read.val_main_v6 (F := Ideal) x3) x4 x5 x6 x7 x8 (ix2 r j) := by
  rw [Read.val_main_v20_apply, Read.val_main_v19_apply, Read.val_main_v16_apply, layer_times_at, state_times_at,
    bias_rnn_at]
  rfl

/-- The bias of the output layer, broadcast along the rows, at (r, 0, o): entry o of the bias. -/
theorem bias_post_at (r : Fin 8192) (o : Fin 768) :
    Read.val_main_v23 (F := Ideal) x10 (ix3 r (0 : Fin 1) o) = vec x10 o := by
  rw [Read.val_main_v23_apply, Read.val_main_v22_apply]
  exact congrArg x10 (funext fun a => by match a with | ⟨0, _⟩ => rfl)

/-- The new state times the output weights, at (r, 0, o). -/
theorem newState_times_at (r : Fin 8192) (o : Fin 768) :
    Read.val_main_v21 (F := Ideal) x0 x1 x2 x3 x4 x5 x6 x7 x8 x9 (ix3 r (0 : Fin 1) o)
      = rowsTimes (newState x0 x1 x2 (Read.val_main_v6 (F := Ideal) x3) x4 x5 x6 x7 x8) x9 (ix2 r o) := by
  rw [Read.val_main_v21_apply]
  refine Finset.sum_congr rfl fun k _ => ?_
  have el : Read.lidx_main_v21 (ix3 r (0 : Fin 1) o) k = ix3 r (0 : Fin 1) k :=
    funext fun a => by match a with | ⟨0, _⟩ => rfl | ⟨1, _⟩ => rfl | ⟨2, _⟩ => rfl
  have er : Read.ridx_main_v21 (ix3 r (0 : Fin 1) o) k = ix2 k o :=
    funext fun a => by match a with | ⟨0, _⟩ => rfl | ⟨1, _⟩ => rfl
  rw [el, er, newState_at]

/-- The output at (r, 0, o). -/
theorem output_at (r : Fin 8192) (o : Fin 768) :
    Read.val_main_v25 (F := Ideal) x0 x1 x2 x3 x4 x5 x6 x7 x8 x9 x10 (ix3 r (0 : Fin 1) o)
      = output x0 x1 x2 (Read.val_main_v6 (F := Ideal) x3) x4 x5 x6 x7 x8 x9 x10 (ix2 r o) := by
  rw [Read.val_main_v25_apply, Read.val_main_call1_v0_apply, Read.val_main_call1_cst_apply, Read.val_main_v24_apply,
    newState_times_at, bias_post_at]
  rfl

/-- An index of a [8192, 1, n] array is (its row, 0, its last coordinate). -/
theorem idx_eq {n : Nat} (i : (⟨3, ![8192, 1, n]⟩ : Shape).Idx) : i = ix3 (i 0 : Fin 8192) (0 : Fin 1) (i 2 : Fin n) :=
  funext fun a => by
    match a with
    | ⟨0, _⟩ => rfl
    | ⟨1, _⟩ => exact Fin.ext (by have h : (i 1).val < 1 := (i 1).isLt; show (i 1).val = 0; omega)
    | ⟨2, _⟩ => rfl

/-- Result 2 of the reference is the new state of every row. -/
theorem result2_eq :
    Read.val_main_v20 (F := Ideal) x0 x1 x2 x3 x4 x5 x6 x7 x8
      = Whole.result2 x0 x1 x2 (Read.val_main_v6 (F := Ideal) x3) x4 x5 x6 x7 x8 := by
  funext i
  exact (congrArg (Read.val_main_v20 (F := Ideal) x0 x1 x2 x3 x4 x5 x6 x7 x8) (idx_eq i)).trans
    (newState_at x0 x1 x2 x3 x4 x5 x6 x7 x8 (i 0) (i 2))

/-- Result 0 of the reference is the output's columns 0…511. -/
theorem result0_eq :
    Read.val_main_v26 (F := Ideal) x0 x1 x2 x3 x4 x5 x6 x7 x8 x9 x10
      = Whole.result0 x0 x1 x2 (Read.val_main_v6 (F := Ideal) x3) x4 x5 x6 x7 x8 x9 x10 := by
  funext i
  have hi : Read.idx_main_v26 i = ix3 (i 0 : Fin 8192) (0 : Fin 1) (Fin.castAdd 256 (i 2 : Fin 512) : Fin 768) :=
    funext fun a => by
      match a with
      | ⟨0, _⟩ => rfl
      | ⟨1, _⟩ => exact Fin.ext (by have h : (i 1).val < 1 := (i 1).isLt; show (i 1).val = 0; omega)
      | ⟨2, _⟩ => rfl
  rw [Read.val_main_v26_apply, hi]
  exact output_at x0 x1 x2 x3 x4 x5 x6 x7 x8 x9 x10 (i 0) (Fin.castAdd 256 (i 2 : Fin 512))

/-- Result 1 of the reference is the output's columns 512…767. -/
theorem result1_eq :
    Read.val_main_v27 (F := Ideal) x0 x1 x2 x3 x4 x5 x6 x7 x8 x9 x10
      = Whole.result1 x0 x1 x2 (Read.val_main_v6 (F := Ideal) x3) x4 x5 x6 x7 x8 x9 x10 := by
  funext i
  have hi : Read.idx_main_v27 i = ix3 (i 0 : Fin 8192) (0 : Fin 1) (Fin.natAdd 512 (i 2 : Fin 256) : Fin 768) :=
    funext fun a => by
      match a with
      | ⟨0, _⟩ => rfl
      | ⟨1, _⟩ => exact Fin.ext (by have h : (i 1).val < 1 := (i 1).isLt; show (i 1).val = 0; omega)
      | ⟨2, _⟩ => rfl
  rw [Read.val_main_v27_apply, hi]
  exact output_at x0 x1 x2 x3 x4 x5 x6 x7 x8 x9 x10 (i 0) (Fin.natAdd 512 (i 2 : Fin 256))

end Cert.ReferenceIdeal.RefValue

end
-- ==== Proof.lean ====
/-
  The proof of `Cert.Claim`: the kernel computes the recurrent cell

      ctx = c · clip(W_read),   a = max(x · W_pre[0:512] + ctx · W_pre[512:768] + b_pre, 0),
      h' = tanh(a · Wx + h · Wh + b_rnn),   out = max(h' · W_post + b_post, 0)

  one block of 512 rows at a time, and the reference computes it on all 8192 rows at once, forming the layer's input
  by laying x and ctx side by side and contracting all 768 entries against W_pre. On the extended reals the two are
  the same function of the arguments, entry by entry: a change of float format is the identity, a product into a zero
  accumulator is the plain product, every row of the cell depends on that row alone (so blocks of rows give the whole),
  and a sum over 768 = 512 + 256 consecutive indices is the sum of its two parts. No finiteness is needed: only the
  order-free laws of + on the extended reals are used, and the two sides' products stand in the same order.

  The modules: LibRowsTimes, LibPlainProduct (products entry by entry), Cell (the cell with any number of rows, and
  its row-locality), Whole (the three results as functions of the arguments), Body (the kernel body's stored values are
  the cell of its blocks), Entry (the arrays the kernel is launched on), Blocks (the 16 blocks' write-backs are the
  whole arrays), Tail (the unit axis put back), KernelRun (the kernel program's run read back), RefValue (the reference's
  results are the same functions). The three frames: the two kernels' are generated whole; the reference's is its
  generated run with the results dropped. The idealization rewrote no operation, so `preserves` is trivial.
-/
import proofs.«164933_j38611755991897_2_alg».proof.Defs
import proofs.«164933_j38611755991897_2_alg».proof.Proof.Gen.Kernel
import proofs.«164933_j38611755991897_2_alg».proof.Proof.Gen.Kernel.Skeleton
import proofs.«164933_j38611755991897_2_alg».proof.Proof.Gen.Kernel.Launch
import proofs.«164933_j38611755991897_2_alg».proof.Proof.Gen.Kernel.Points
import proofs.«164933_j38611755991897_2_alg».proof.Proof.Gen.Kernel.Frame
import proofs.«164933_j38611755991897_2_alg».proof.Proof.Gen.KernelIdeal
import proofs.«164933_j38611755991897_2_alg».proof.Proof.Gen.KernelIdeal.Skeleton
import proofs.«164933_j38611755991897_2_alg».proof.Proof.Gen.KernelIdeal.Launch
import proofs.«164933_j38611755991897_2_alg».proof.Proof.Gen.KernelIdeal.Points
import proofs.«164933_j38611755991897_2_alg».proof.Proof.Gen.KernelIdeal.Frame
import proofs.«164933_j38611755991897_2_alg».proof.Proof.Gen.ReferenceIdeal
import proofs.«164933_j38611755991897_2_alg».proof.Proof.Gen.ReferenceIdeal.Run
import proofs.«164933_j38611755991897_2_alg».proof.Proof.Gen.ReferenceIdeal.Read
import proofs.«164933_j38611755991897_2_alg».proof.Proof.Gen.Pre_finite_inputs
import proofs.«164933_j38611755991897_2_alg».proof.Proof.KernelRun
import proofs.«164933_j38611755991897_2_alg».proof.Proof.RefValue
import Idealize.ShloMosaic.Adequacy
import Idealize.ShloMosaic.Init

noncomputable section

namespace Cert.Proof

open Idealize.ShloMosaic Idealize.SL.Sem

/-- Both programs scale W_read by the same chain of operations: the reference's clipped weights are the kernel's. -/
theorem clipped_eq (w : FVec Ideal Cert.KernelIdeal.S512x256 .f32) :
    Cert.ReferenceIdeal.Read.val_main_v6 (F := Ideal) w = Cert.KernelIdeal.Entry.clipped w := rfl

/-- The word-level kernel program's frame. -/
theorem frame_k : Cert.frame_Kernel := fun m ρ _ => Cert.Kernel.Gen.frame m ρ

/-- The idealized kernel program's frame. -/
theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- At the ideal values both programs, run from memories that agree on the arguments, end with the cell's three
    results of the arguments. -/
theorem algebraic : Cert.algebraic_KernelIdeal_ReferenceIdeal := by
  intro m ρ m' ρ' _ hagree
  refine ⟨Cert.KernelIdeal.Run.res0 m, Cert.KernelIdeal.Run.res1 m, Cert.KernelIdeal.Run.res2 m,
    Cert.KernelIdeal.Run.run m ρ, ?_⟩
  refine (θ_run Cert.ReferenceIdeal.defs _ _).mono (fun _ h c => ?_) (Cert.ReferenceIdeal.Value.run (F := Ideal) m' ρ')
  obtain ⟨h26, h27, h20, hargs⟩ := h c
  obtain ⟨g0, g1, g2, g3, g4, g5, g6, g7, g8, g9, g10⟩ := hagree c
  refine ⟨h26.trans ?_, h27.trans ?_, h20.trans ?_, hargs⟩
  · refine (Cert.ReferenceIdeal.Read.val_main_v26_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    rw [g0, g1, g2, g3, g4, g5, g6, g7, g8, g9, g10, Cert.ReferenceIdeal.RefValue.result0_eq, clipped_eq]
    rfl
  · refine (Cert.ReferenceIdeal.Read.val_main_v27_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_
    rw [g0, g1, g2, g3, g4, g5, g6, g7, g8, g9, g10, Cert.ReferenceIdeal.RefValue.result1_eq, clipped_eq]
    rfl
  · refine (Cert.ReferenceIdeal.Read.val_main_v20_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
    rw [g0, g1, g2, g3, g4, g5, g6, g7, g8, Cert.ReferenceIdeal.RefValue.result2_eq, clipped_eq]
    rfl

/-- The five conjuncts behind the programs' stated facts. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
